-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x168 : Shape := ⟨2, ![100000, 168]⟩
abbrev S2x1600000 : Shape := ⟨2, ![2, 1600000]⟩
abbrev S1600000 : Shape := ⟨1, ![1600000]⟩
abbrev S512x168 : Shape := ⟨2, ![512, 168]⟩
abbrev S512 : Shape := ⟨1, ![512]⟩
abbrev S64x512 : Shape := ⟨2, ![64, 512]⟩
abbrev S64 : Shape := ⟨1, ![64]⟩
abbrev S64x64 : Shape := ⟨2, ![64, 64]⟩
abbrev S_ : Shape := ⟨0, ![]⟩

class Facts : Prop where
  bcast_S_S100000x168 : S_.BroadcastsInDim S100000x168 (![] : Fin 0 → Fin S100000x168.rank)
  reducesTo_S100000x168_S_d0_1 : S100000x168.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x168 : S_.BroadcastsInDim S512x168 (![] : Fin 0 → Fin S512x168.rank)
  reducesTo_S512x168_S_d0_1 : S512x168.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part7 {F : FTy → Type} [FloatOps F] (main_arg26 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg26
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  main_v128

def fn_part6 {F : FTy → Type} [FloatOps F] (main_arg22 : FVec F S64 .f32) (main_arg23 : FVec F S64 .f32) (main_arg24 : FVec F S64 .f32) (main_arg25 : FVec F S64 .f32) (main_arg26 : FVec F S64 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg23
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg25
  fn_part7 (F := F) main_arg26 main_v118 main_v119

def fn_part5 {F : FTy → Type} [FloatOps F] (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64 .f32) (main_arg26 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg21
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg22 main_arg23 main_arg24 main_arg25 main_arg26 main_v98 main_v101 main_c_39

def fn_part4 {F : FTy → Type} [FloatOps F] (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64 .f32) (main_arg26 : FVec F S64 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_arg25 main_arg26 main_v83 main_v84 main_cst_32

def fn_part3 {F : FTy → Type} [FloatOps F] (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64 .f32) (main_arg26 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_arg23 main_arg24 main_arg25 main_arg26 main_v63 main_v67

def fn_part2 {F : FTy → Type} [FloatOps F] (main_arg8 : FVec F S512 .f32) (main_arg9 : FVec F S64x512 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64 .f32) (main_arg26 : FVec F S64 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S64x512 .f32 := Host.absf main_arg9
  let main_cst_14 : FVec F S_ .f32 := constant S_ .f32 0x7F800000#32
  let main_v40 : FVec F S64x512 .f32 := broadcastInDim S64x512 ![] bcast_S_S64x512 main_cst_14
  let main_v41 : IVec S64x512 1 := cmpf .olt main_v39 main_v40
  let main_c_15 : IVec S_ 1 := constantI S_ 1 1#1
  let main_v42 : IVec S_ 1 := (fun x v => Host.reduce IntOp.andi x v reducesTo_S64x512_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg5 : FVec F S512 .f32) (main_arg6 : FVec F S512 .f32) (main_arg7 : FVec F S512 .f32) (main_arg8 : FVec F S512 .f32) (main_arg9 : FVec F S64x512 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64 .f32) (main_arg26 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x168 .f32) (main_arg1 : IVec S2x1600000 32) (main_arg2 : FVec F S1600000 .f32) (main_arg3 : FVec F S512x168 .f32) (main_arg4 : FVec F S512 .f32) (main_arg5 : FVec F S512 .f32) (main_arg6 : FVec F S512 .f32) (main_arg7 : FVec F S512 .f32) (main_arg8 : FVec F S512 .f32) (main_arg9 : FVec F S64x512 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x64 .f32) (main_arg22 : FVec F S64 .f32) (main_arg23 : FVec F S64 .f32) (main_arg24 : FVec F S64 .f32) (main_arg25 : FVec F S64 .f32) (main_arg26 : FVec F S64 .f32) : IVec S_ 1 :=
  let main_v0 : FVec F S100000x168 .f32 := Host.absf main_arg0
  let main_cst : FVec F S_ .f32 := constant S_ .f32 0x7F800000#32
  let main_v1 : FVec F S100000x168 .f32 := broadcastInDim S100000x168 ![] bcast_S_S100000x168 main_cst
  let main_v2 : IVec S100000x168 1 := cmpf .olt main_v0 main_v1
  let main_c : IVec S_ 1 := constantI S_ 1 1#1
  let main_v3 : IVec S_ 1 := (fun x v => Host.reduce IntOp.andi x v reducesTo_S100000x168_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x168 .f32 := Host.absf main_arg3
  let main_cst_2 : FVec F S_ .f32 := constant S_ .f32 0x7F800000#32
  let main_v10 : FVec F S512x168 .f32 := broadcastInDim S512x168 ![] bcast_S_S512x168 main_cst_2
  let main_v11 : IVec S512x168 1 := cmpf .olt main_v9 main_v10
  let main_c_3 : IVec S_ 1 := constantI S_ 1 1#1
  let main_v12 : IVec S_ 1 := (fun x v => Host.reduce IntOp.andi x v reducesTo_S512x168_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x168 : Shape := ⟨2, ![100000, 168]⟩
abbrev S2x1600000 : Shape := ⟨2, ![2, 1600000]⟩
abbrev S1600000 : Shape := ⟨1, ![1600000]⟩
abbrev S512x168 : Shape := ⟨2, ![512, 168]⟩
abbrev S512 : Shape := ⟨1, ![512]⟩
abbrev S64x512 : Shape := ⟨2, ![64, 512]⟩
abbrev S64 : Shape := ⟨1, ![64]⟩
abbrev S64x64 : Shape := ⟨2, ![64, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S168x512 : Shape := ⟨2, ![168, 512]⟩
abbrev S512x64 : Shape := ⟨2, ![512, 64]⟩
abbrev S1x512 : Shape := ⟨2, ![1, 512]⟩
abbrev S1x64 : Shape := ⟨2, ![1, 64]⟩
abbrev S100000x64 : Shape := ⟨2, ![100000, 64]⟩
abbrev S2000x168 : Shape := ⟨2, ![2000, 168]⟩
abbrev S2000x64 : Shape := ⟨2, ![2000, 64]⟩
abbrev S2000x512 : Shape := ⟨2, ![2000, 512]⟩
abbrev S1700000x64 : Shape := ⟨2, ![1700000, 64]⟩

abbrev nBuf : Space → Nat
  | .hbm => 137
  | .vmem => 42
  | .smem => 0
  | _ => 0

abbrev hbmTy0_0 (i : Nat) : BufTy := match i % 128 with
  | 0 => ⟨S100000x168, .f32⟩
  | 1 => ⟨S2x1600000, .i32⟩
  | 2 => ⟨S1600000, .f32⟩
  | 3 => ⟨S512x168, .f32⟩
  | 4 => ⟨S512, .f32⟩
  | 5 => ⟨S512, .f32⟩
  | 6 => ⟨S512, .f32⟩
  | 7 => ⟨S512, .f32⟩
  | 8 => ⟨S512, .f32⟩
  | 9 => ⟨S64x512, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x64, .f32⟩
  | 22 => ⟨S64, .f32⟩
  | 23 => ⟨S64, .f32⟩
  | 24 => ⟨S64, .f32⟩
  | 25 => ⟨S64, .f32⟩
  | 26 => ⟨S64, .f32⟩
  | 27 => ⟨S1x1600000, .i32⟩
  | 28 => ⟨S1600000, .i32⟩
  | 29 => ⟨S1x1600000, .i32⟩
  | 30 => ⟨S1600000, .i32⟩
  | 31 => ⟨S100000, .i32⟩
  | 32 => ⟨S1700000, .i32⟩
  | 33 => ⟨S1700000, .i32⟩
  | 34 => ⟨S_, .f32⟩
  | 35 => ⟨S100000, .f32⟩
  | 36 => ⟨S1700000, .f32⟩
  | 37 => ⟨S_, .f32⟩
  | 38 => ⟨S100000, .f32⟩
  | 39 => ⟨S1700000x1, .i32⟩
  | 40 => ⟨S100000, .f32⟩
  | 41 => ⟨S_, .f32⟩
  | 42 => ⟨S100000, .f32⟩
  | 43 => ⟨S100000, .i1⟩
  | 44 => ⟨S_, .f32⟩
  | 45 => ⟨S100000, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S168x512, .f32⟩
  | 73 => ⟨S512x64, .f32⟩
  | 74 => ⟨S1x512, .f32⟩
  | 75 => ⟨S1x512, .f32⟩
  | 76 => ⟨S1x512, .f32⟩
  | 77 => ⟨S1x512, .f32⟩
  | 78 => ⟨S1x512, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S100000x64, .f32⟩
  | 85 => ⟨S64x64, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x1, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S1x64, .f32⟩
  | 104 => ⟨S100000x64, .f32⟩
  | 105 => ⟨S100000x64, .f32⟩
  | 106 => ⟨S1x64, .f32⟩
  | 107 => ⟨S1x64, .f32⟩
  | 108 => ⟨S1x64, .f32⟩
  | 109 => ⟨S1x64, .f32⟩
  | 110 => ⟨S100000x64, .f32⟩
  | 111 => ⟨S64x64, .f32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x1, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x168, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S1x64, .f32⟩
  | 5 => ⟨S1x64, .f32⟩
  | 6 => ⟨S1x64, .f32⟩
  | 7 => ⟨S1x64, .f32⟩
  | 8 => ⟨S100000x64, .f32⟩
  | _ => ⟨S100000x168, .f32⟩

abbrev hbmTy (i : Nat) : BufTy := match i / 128 with
  | 0 => hbmTy0_0 i
  | 1 => hbmTy0_1 i
  | _ => ⟨S100000x168, .f32⟩

abbrev bufTy : (tb : Table) → Fin (tcTables nBuf tb) → BufTy
  | .hbm, ⟨i, _⟩ => hbmTy i
  | .local _ .vmem, ⟨0, _⟩ => ⟨S2000x168, .f32⟩
  | .local _ .vmem, ⟨1, _⟩ => ⟨S2000x168, .f32⟩
  | .local _ .vmem, ⟨2, _⟩ => ⟨S168x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S64x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | _, _ => ⟨S100000x168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v17 : Ref sig .tc := ⟨.hbm, 51, rfl⟩
abbrev main_c : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_5 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_7 : Ref sig .tc := ⟨.hbm, 87, rfl⟩
abbrev main_v49 : Ref sig .tc := ⟨.hbm, 88, rfl⟩
abbrev main_v50 : Ref sig .tc := ⟨.hbm, 89, rfl⟩
abbrev main_c_8 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_9 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_10 : Ref sig .tc := ⟨.hbm, 113, rfl⟩
abbrev main_v72 : Ref sig .tc := ⟨.hbm, 114, rfl⟩
abbrev main_v73 : Ref sig .tc := ⟨.hbm, 115, rfl⟩
abbrev main_c_11 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_12 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S168x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S512x168_S168x512_1_0 : S512x168.Transposes [1, 0] S168x512
  transposes_S64x512_S512x64_1_0 : S64x512.Transposes [1, 0] S512x64
  shapeCasts_S512_S1x512 : S512.ShapeCasts S1x512
  shapeCasts_S64_S1x64 : S64.ShapeCasts S1x64
  inb_S2000x168_S2000x168_0_0 : ∀ a, (![0, 0] : Fin 2 → Nat) a + S2000x168.size a ≤ S2000x168.size a
  h_S2000x168 : 0 < S2000x168.numel
  bitsLt_bf16_f32 : FTy.bits .bf16 < FTy.bits .f32
  inb_S168x512_S168x512_0_0 : ∀ a, (![0, 0] : Fin 2 → Nat) a + S168x512.size a ≤ S168x512.size a
  h_S168x512 : 0 < S168x512.numel
  shapeCasts_S168x512_S168x512 : S168x512.ShapeCasts S168x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  transposes_S64x64_S64x64_1_0 : S64x64.Transposes [1, 0] S64x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x168_S168x512_S2000x512_1_0_0_1_n_n_wf : DotDims.WF S2000x168 S168x512 S2000x512 [1] [0] [0] [1] [] []
  dot_S2000x512_S512x64_S2000x64_1_0_0_1_n_n_wf : DotDims.WF S2000x512 S512x64 S2000x64 [1] [0] [0] [1] [] []
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x168.size a ≤ S100000x168.size a
  hwx0_0 : ∀ i : grid0.Coords, EltTy.bits .f32 = 32 ∨ (Rect.block (s := S100000x168) S2000x168.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S168x512.size a ≤ S168x512.size a
  hwx0_1 : ∀ i : grid0.Coords, EltTy.bits .f32 = 32 ∨ (Rect.block (s := S168x512) S168x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S512x64.size a
  hwx0_7 : ∀ i : grid0.Coords, EltTy.bits .f32 = 32 ∨ (Rect.block (s := S512x64) S512x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x64.size a ≤ S100000x64.size a
  hwx0_13 : ∀ i : grid0.Coords, EltTy.bits .f32 = 32 ∨ (Rect.block (s := S100000x64) S2000x64.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S100000x64.size a
  hwx4_5 : ∀ i : grid4.Coords, EltTy.bits .f32 = 32 ∨ (Rect.block (s := S100000x64) S2000x64.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x168_S168x512_S2000x512_1_0_0_1_n_n : DotDims S2000x168 S168x512 S2000x512 where
  lhsContracting := [1]
  rhsContracting := [0]
  lhsNonContracting := [0]
  rhsNonContracting := [1]
  lhsBatch := []
  rhsBatch := []
  wf := dot_S2000x168_S168x512_S2000x512_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S168x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S512x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v45) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v46) S2000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v91) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x168 : Shape := ⟨2, ![100000, 168]⟩
abbrev S2x1600000 : Shape := ⟨2, ![2, 1600000]⟩
abbrev S1600000 : Shape := ⟨1, ![1600000]⟩
abbrev S512x168 : Shape := ⟨2, ![512, 168]⟩
abbrev S512 : Shape := ⟨1, ![512]⟩
abbrev S64x512 : Shape := ⟨2, ![64, 512]⟩
abbrev S64 : Shape := ⟨1, ![64]⟩
abbrev S64x64 : Shape := ⟨2, ![64, 64]⟩
abbrev S1x1600000 : Shape := ⟨2, ![1, 1600000]⟩
abbrev S168x512 : Shape := ⟨2, ![168, 512]⟩
abbrev S100000x512 : Shape := ⟨2, ![100000, 512]⟩
abbrev S1x512 : Shape := ⟨2, ![1, 512]⟩
abbrev S_ : Shape := ⟨0, ![]⟩
abbrev S512x64 : Shape := ⟨2, ![512, 64]⟩
abbrev S100000x64 : Shape := ⟨2, ![100000, 64]⟩
abbrev S1x64 : Shape := ⟨2, ![1, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩

abbrev nBuf : Space → Nat
  | .hbm => 241
  | .vmem => 0
  | .smem => 0
  | _ => 0

abbrev hbmTy0_0 (i : Nat) : BufTy := match i % 128 with
  | 0 => ⟨S100000x168, .f32⟩
  | 1 => ⟨S2x1600000, .i32⟩
  | 2 => ⟨S1600000, .f32⟩
  | 3 => ⟨S512x168, .f32⟩
  | 4 => ⟨S512, .f32⟩
  | 5 => ⟨S512, .f32⟩
  | 6 => ⟨S512, .f32⟩
  | 7 => ⟨S512, .f32⟩
  | 8 => ⟨S512, .f32⟩
  | 9 => ⟨S64x512, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x64, .f32⟩
  | 22 => ⟨S64, .f32⟩
  | 23 => ⟨S64, .f32⟩
  | 24 => ⟨S64, .f32⟩
  | 25 => ⟨S64, .f32⟩
  | 26 => ⟨S64, .f32⟩
  | 27 => ⟨S1x1600000, .i32⟩
  | 28 => ⟨S1600000, .i32⟩
  | 29 => ⟨S1x1600000, .i32⟩
  | 30 => ⟨S1600000, .i32⟩
  | 31 => ⟨S168x512, .f32⟩
  | 32 => ⟨S100000x512, .f32⟩
  | 33 => ⟨S1x512, .f32⟩
  | 34 => ⟨S100000x512, .f32⟩
  | 35 => ⟨S100000x512, .f32⟩
  | 36 => ⟨S_, .f32⟩
  | 37 => ⟨S100000x512, .f32⟩
  | 38 => ⟨S100000x512, .f32⟩
  | 39 => ⟨S1x512, .f32⟩
  | 40 => ⟨S100000x512, .f32⟩
  | 41 => ⟨S100000x512, .f32⟩
  | 42 => ⟨S_, .f32⟩
  | 43 => ⟨S512, .f32⟩
  | 44 => ⟨S512, .f32⟩
  | 45 => ⟨S512, .f32⟩
  | 46 => ⟨S1x512, .f32⟩
  | 47 => ⟨S100000x512, .f32⟩
  | 48 => ⟨S100000x512, .f32⟩
  | 49 => ⟨S1x512, .f32⟩
  | 50 => ⟨S100000x512, .f32⟩
  | 51 => ⟨S100000x512, .f32⟩
  | 52 => ⟨S1x512, .f32⟩
  | 53 => ⟨S100000x512, .f32⟩
  | 54 => ⟨S100000x512, .f32⟩
  | 55 => ⟨S512x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S64x64, .f32⟩
  | 80 => ⟨S100000x64, .f32⟩
  | 81 => ⟨S100000, .i32⟩
  | 82 => ⟨S1700000, .i32⟩
  | 83 => ⟨S1700000, .i32⟩
  | 84 => ⟨S_, .f32⟩
  | 85 => ⟨S100000, .f32⟩
  | 86 => ⟨S1700000, .f32⟩
  | 87 => ⟨S_, .f32⟩
  | 88 => ⟨S100000, .f32⟩
  | 89 => ⟨S1700000x1, .i32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000, .f32⟩
  | 121 => ⟨S1700000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x168, .f32⟩

abbrev hbmTy0_1 (i : Nat) : BufTy := match i % 128 with
  | 0 => ⟨S1700000, .i32⟩
  | 1 => ⟨S1700000x1, .i32⟩
  | 2 => ⟨S1700000x64, .f32⟩
  | 3 => ⟨S1700000x1, .f32⟩
  | 4 => ⟨S1700000x64, .f32⟩
  | 5 => ⟨S1700000x64, .f32⟩
  | 6 => ⟨S_, .f32⟩
  | 7 => ⟨S100000x64, .f32⟩
  | 8 => ⟨S1700000x1, .i32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S64, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S64x64, .f32⟩
  | 33 => ⟨S100000x64, .f32⟩
  | 34 => ⟨S100000, .i32⟩
  | 35 => ⟨S1700000, .i32⟩
  | 36 => ⟨S1700000, .i32⟩
  | 37 => ⟨S_, .f32⟩
  | 38 => ⟨S100000, .f32⟩
  | 39 => ⟨S1700000, .f32⟩
  | 40 => ⟨S_, .f32⟩
  | 41 => ⟨S100000, .f32⟩
  | 42 => ⟨S1700000x1, .i32⟩
  | 43 => ⟨S100000, .f32⟩
  | 44 => ⟨S_, .f32⟩
  | 45 => ⟨S100000, .f32⟩
  | 46 => ⟨S100000, .i1⟩
  | 47 => ⟨S_, .f32⟩
  | 48 => ⟨S100000, .f32⟩
  | 49 => ⟨S100000, .f32⟩
  | 50 => ⟨S100000, .f32⟩
  | 51 => ⟨S_, .f32⟩
  | 52 => ⟨S_, .f32⟩
  | 53 => ⟨S100000, .f32⟩
  | 54 => ⟨S100000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000, .f32⟩
  | 74 => ⟨S1700000, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x1, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | _ => ⟨S100000x168, .f32⟩

abbrev hbmTy (i : Nat) : BufTy := match i / 128 with
  | 0 => hbmTy0_0 i
  | 1 => hbmTy0_1 i
  | _ => ⟨S100000x168, .f32⟩

abbrev bufTy : (tb : Table) → Fin (tcTables nBuf tb) → BufTy
  | .hbm, ⟨i, _⟩ => hbmTy i
  | _, _ => ⟨S100000x168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_call0_cst : Ref sig .tc := ⟨.hbm, 36, rfl⟩
abbrev main_call0_v0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_call1_cst : Ref sig .tc := ⟨.hbm, 60, rfl⟩
abbrev main_call1_v0 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_0 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_1 : Ref sig .tc := ⟨.hbm, 84, rfl⟩
abbrev main_v51 : Ref sig .tc := ⟨.hbm, 85, rfl⟩
abbrev main_v52 : Ref sig .tc := ⟨.hbm, 86, rfl⟩
abbrev main_cst_2 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_3 : Ref sig .tc := ⟨.hbm, 91, rfl⟩
abbrev main_v56 : Ref sig .tc := ⟨.hbm, 92, rfl⟩
abbrev main_v57 : Ref sig .tc := ⟨.hbm, 93, rfl⟩
abbrev main_cst_4 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_5 : Ref sig .tc := ⟨.hbm, 98, rfl⟩
abbrev main_call2_v0 : Ref sig .tc := ⟨.hbm, 99, rfl⟩
abbrev main_call2_v1 : Ref sig .tc := ⟨.hbm, 100, rfl⟩
abbrev main_v61 : Ref sig .tc := ⟨.hbm, 101, rfl⟩
abbrev main_c : Ref sig .tc := ⟨.hbm, 102, rfl⟩
abbrev main_v62 : Ref sig .tc := ⟨.hbm, 103, rfl⟩
abbrev main_v63 : Ref sig .tc := ⟨.hbm, 104, rfl⟩
abbrev main_c_6 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_c_7 : Ref sig .tc := ⟨.hbm, 112, rfl⟩
abbrev main_v70 : Ref sig .tc := ⟨.hbm, 113, rfl⟩
abbrev main_v71 : Ref sig .tc := ⟨.hbm, 114, rfl⟩
abbrev main_c_8 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_9 : Ref sig .tc := ⟨.hbm, 122, rfl⟩
abbrev main_v78 : Ref sig .tc := ⟨.hbm, 123, rfl⟩
abbrev main_v79 : Ref sig .tc := ⟨.hbm, 124, rfl⟩
abbrev main_c_10 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_11 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_call3_cst : Ref sig .tc := ⟨.hbm, 141, rfl⟩
abbrev main_call3_v0 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_12 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_13 : Ref sig .tc := ⟨.hbm, 165, rfl⟩
abbrev main_v115 : Ref sig .tc := ⟨.hbm, 166, rfl⟩
abbrev main_v116 : Ref sig .tc := ⟨.hbm, 167, rfl⟩
abbrev main_cst_14 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_15 : Ref sig .tc := ⟨.hbm, 172, rfl⟩
abbrev main_v120 : Ref sig .tc := ⟨.hbm, 173, rfl⟩
abbrev main_v121 : Ref sig .tc := ⟨.hbm, 174, rfl⟩
abbrev main_cst_16 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_17 : Ref sig .tc := ⟨.hbm, 179, rfl⟩
abbrev main_call4_v0 : Ref sig .tc := ⟨.hbm, 180, rfl⟩
abbrev main_call4_v1 : Ref sig .tc := ⟨.hbm, 181, rfl⟩
abbrev main_v125 : Ref sig .tc := ⟨.hbm, 182, rfl⟩
abbrev main_c_18 : Ref sig .tc := ⟨.hbm, 183, rfl⟩
abbrev main_v126 : Ref sig .tc := ⟨.hbm, 184, rfl⟩
abbrev main_v127 : Ref sig .tc := ⟨.hbm, 185, rfl⟩
abbrev main_c_19 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_c_20 : Ref sig .tc := ⟨.hbm, 193, rfl⟩
abbrev main_v134 : Ref sig .tc := ⟨.hbm, 194, rfl⟩
abbrev main_v135 : Ref sig .tc := ⟨.hbm, 195, rfl⟩
abbrev main_c_21 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_c_22 : Ref sig .tc := ⟨.hbm, 203, rfl⟩
abbrev main_v142 : Ref sig .tc := ⟨.hbm, 204, rfl⟩
abbrev main_v143 : Ref sig .tc := ⟨.hbm, 205, rfl⟩
abbrev main_c_23 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_24 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_call5_cst : Ref sig .tc := ⟨.hbm, 222, rfl⟩
abbrev main_call5_v0 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_cst_25 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S512x168_S168x512_1_0 : S512x168.Transposes [1, 0] S168x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S_S512 : S_.BroadcastsInDim S512 (![] : Fin 0 → Fin S512.rank)
  transposes_S64x512_S512x64_1_0 : S64x512.Transposes [1, 0] S512x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S64 : S_.BroadcastsInDim S64 (![] : Fin 0 → Fin S64.rank)
  transposes_S64x64_S64x64_1_0 : S64x64.Transposes [1, 0] S64x64
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  dot_S100000x168_S168x512_S100000x512_1_0_0_1_n_n_wf : DotDims.WF S100000x168 S168x512 S100000x512 [1] [0] [0] [1] [] []
  dot_S100000x512_S512x64_S100000x64_1_0_0_1_n_n_wf : DotDims.WF S100000x512 S512x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x168_S168x512_S100000x512_1_0_0_1_n_n : DotDims S100000x168 S168x512 S100000x512 where
  lhsContracting := [1]
  rhsContracting := [0]
  lhsNonContracting := [0]
  rhsNonContracting := [1]
  lhsBatch := []
  rhsBatch := []
  wf := dot_S100000x168_S168x512_S100000x512_1_0_0_1_n_n_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run, with what it leaves in memory named.

  @main is twelve segments — stretches of host operations and five tiled regions — and the contents of the
  TensorCore's buffers at each boundary are a fold from the launch memory: a host stretch applies its operations,
  a region leaves in each of its arrays what its write-backs leave and everything else as it found it.  Every weakly
  fair execution terminates without a fault in a state whose every unscoped buffer holds the last boundary's
  contents.  The claims about the arguments and about the result are both read off that one fact.
-/
import proofs.«103397_j44178033607255_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the fold through the twelve segments ends at. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.HandRun

end
-- ==== Proof.NetSpec.lean ====
/-
  The dense layers of the network, written once as whole-array functions on the extended reals.

  A matrix product `mmR x wt`: entry (p, q) is the sum over k of x(p, k) · wt(k, q), the weight laid out with the
  contracted axis first.  A linear layer `linR`: the product plus a bias row.  And `normedR`, the rectifier followed by
  the running-statistics normalisation: entry (p, q) is ((max y(p, q) 0 − μ(q)) · rsqrt(v(q) + ε)) · g(q) + β(q), the
  four per-column vectors given as one-row arrays.  Every one of them reads, at row p, only row p of its first
  operand: that is what lets a row-tiled computation be compared with the computation over the whole array.
-/
import Idealize.ShloMosaic.Lib.ValueIdx
import Idealize.ShloMosaic.PureOps.Ideal

noncomputable section

namespace Cert.Net

open Idealize.ShloMosaic Idealize.ShloMosaic.ValueIdx

/-- An `[a, b]` array of extended reals. -/
abbrev Mat (a b : ℕ) := (⟨2, ![a, b]⟩ : Shape).Idx → EReal

/-- The two literals of the normalisation: the rectifier's floor 0 and the variance offset ε (the same words in both programs). -/
abbrev zero : EReal := Ideal.ofBits .f32 0x00000000#32
abbrev eps : EReal := Ideal.ofBits .f32 0x3727C5AC#32

/-- The matrix product, the right operand with the contracted axis first. -/
def mmR {a K b : ℕ} (x : Mat a K) (wt : Mat K b) : Mat a b :=
  fun i => ∑ k : Fin K, x (ix2 (⟨(i 0).val, (i 0).isLt⟩ : Fin a) k) * wt (ix2 k (⟨(i 1).val, (i 1).isLt⟩ : Fin b))

/-- A linear layer: the product plus the bias row. -/
def linR {a K b : ℕ} (x : Mat a K) (wt : Mat K b) (bias : Mat 1 b) : Mat a b :=
  fun i => mmR x wt i + bias (ix2 (0 : Fin 1) (⟨(i 1).val, (i 1).isLt⟩ : Fin b))

/-- The rectifier followed by the normalisation with running statistics, column by column. -/
def normedR {a b : ℕ} (y : Mat a b) (g β μ v : Mat 1 b) : Mat a b :=
  fun i => (max (y i) zero - μ (ix2 (0 : Fin 1) (⟨(i 1).val, (i 1).isLt⟩ : Fin b)))
      * Ideal.rsqrt (v (ix2 (0 : Fin 1) (⟨(i 1).val, (i 1).isLt⟩ : Fin b)) + eps)
      * g (ix2 (0 : Fin 1) (⟨(i 1).val, (i 1).isLt⟩ : Fin b))
    + β (ix2 (0 : Fin 1) (⟨(i 1).val, (i 1).isLt⟩ : Fin b))

theorem mmR_ix2 {a K b : ℕ} (x : Mat a K) (wt : Mat K b) (p : Fin a) (q : Fin b) :
    mmR x wt (ix2 p q) = ∑ k : Fin K, x (ix2 p k) * wt (ix2 k q) := rfl

theorem linR_ix2 {a K b : ℕ} (x : Mat a K) (wt : Mat K b) (bias : Mat 1 b) (p : Fin a) (q : Fin b) :
    linR x wt bias (ix2 p q) = (∑ k : Fin K, x (ix2 p k) * wt (ix2 k q)) + bias (ix2 (0 : Fin 1) q) := rfl

theorem normedR_ix2 {a b : ℕ} (y : Mat a b) (g β μ v : Mat 1 b) (p : Fin a) (q : Fin b) :
    normedR y g β μ v (ix2 p q)
      = (max (y (ix2 p q)) zero - μ (ix2 (0 : Fin 1) q)) * Ideal.rsqrt (v (ix2 (0 : Fin 1) q) + eps) * g (ix2 (0 : Fin 1) q)
        + β (ix2 (0 : Fin 1) q) := rfl

/-- The two dense layers in front of the graph layers: linear, rectify, normalise, twice. -/
def mlpR {a : ℕ} (x : Mat a 168) (wt0 : Mat 168 512) (b0 g0 β0 μ0 v0 : Mat 1 512)
    (wt1 : Mat 512 64) (b1 g1 β1 μ1 v1 : Mat 1 64) : Mat a 64 :=
  normedR (linR (normedR (linR x wt0 b0) g0 β0 μ0 v0) wt1 b1) g1 β1 μ1 v1

/-! ## Row-locality: row p of the result reads row p of the first operand only -/

theorem mmR_row {a a' K b : ℕ} (x : Mat a K) (x' : Mat a' K) (wt : Mat K b) (p : Fin a) (p' : Fin a') (q : Fin b)
    (h : ∀ k, x (ix2 p k) = x' (ix2 p' k)) : mmR x wt (ix2 p q) = mmR x' wt (ix2 p' q) := by
  rw [mmR_ix2, mmR_ix2]
  exact Finset.sum_congr rfl fun k _ => by rw [h k]

theorem linR_row {a a' K b : ℕ} (x : Mat a K) (x' : Mat a' K) (wt : Mat K b) (bias : Mat 1 b) (p : Fin a) (p' : Fin a')
    (q : Fin b) (h : ∀ k, x (ix2 p k) = x' (ix2 p' k)) : linR x wt bias (ix2 p q) = linR x' wt bias (ix2 p' q) := by
  rw [linR_ix2, linR_ix2]
  exact congrArg (· + bias (ix2 (0 : Fin 1) q)) (Finset.sum_congr rfl fun k _ => by rw [h k])

theorem normedR_row {a a' b : ℕ} (y : Mat a b) (y' : Mat a' b) (g β μ v : Mat 1 b) (p : Fin a) (p' : Fin a') (q : Fin b)
    (h : y (ix2 p q) = y' (ix2 p' q)) : normedR y g β μ v (ix2 p q) = normedR y' g β μ v (ix2 p' q) := by
  rw [normedR_ix2, normedR_ix2, h]

theorem mlpR_row {a a' : ℕ} (x : Mat a 168) (x' : Mat a' 168) (wt0 : Mat 168 512) (b0 g0 β0 μ0 v0 : Mat 1 512)
    (wt1 : Mat 512 64) (b1 g1 β1 μ1 v1 : Mat 1 64) (p : Fin a) (p' : Fin a') (q : Fin 64)
    (h : ∀ k, x (ix2 p k) = x' (ix2 p' k)) :
    mlpR x wt0 b0 g0 β0 μ0 v0 wt1 b1 g1 β1 μ1 v1 (ix2 p q) = mlpR x' wt0 b0 g0 β0 μ0 v0 wt1 b1 g1 β1 μ1 v1 (ix2 p' q) := by
  unfold mlpR
  refine normedR_row _ _ _ _ _ _ p p' q (linR_row _ _ _ _ p p' q fun j => ?_)
  exact normedR_row _ _ _ _ _ _ p p' j (linR_row _ _ _ _ p p' j h)

end Cert.Net

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.Bodies.lean ====
/-
  The five kernel bodies, each as one of the network's layers applied to the blocks it loads.

  A body loads whole blocks, computes, and stores one whole block.  At the ideal values the cuts to bf16 and the
  identity re-casts drop out, a product accumulated from zero is the plain sum of products, and a one-row block spread
  over the rows reads its entry of the column: so the stored block is, entry by entry, the product layer, the
  rectify-and-normalise layer, or (the first body) the two dense layers one after the other.
-/
import proofs.«103397_j44178033607255_2_alg».proof.Proof.Gen.KernelIdeal.Frame
import proofs.«103397_j44178033607255_2_alg».proof.Proof.NetSpec
import proofs.«103397_j44178033607255_2_alg».proof.Proof.LibMatmulIx
import Idealize.ShloMosaic.Lib.ValueLayout
import Idealize.ShloMosaic.Lib.Pipeline.Value

set_option maxRecDepth 16384

noncomputable section

namespace Cert.KernelIdeal.Bodies

open Cert.KernelIdeal Cert.KernelIdeal.Gen Cert.Net
open Idealize.ShloMosaic Idealize.ShloMosaic.ValueIdx

/-- The offsets `![0, 0]` are zero on both axes. -/
theorem hz : (![0, 0] : Fin 2 → Nat) = fun _ => 0 := funext fun a => by fin_cases a <;> rfl

/-! ## The three products' dimension numbers

Each contracts the left operand's columns with the right operand's rows: the left index is (row of the result,
contracted coordinate), the right index (contracted coordinate, column of the result). -/

theorem d168_l0 (i : S2000x512.Idx) (q : dot_S2000x168_S168x512_S2000x512_1_0_0_1_n_n.contr.Idx) : (dot_S2000x168_S168x512_S2000x512_1_0_0_1_n_n.lhsIdx i q 0).val = (i 0).val := by
  unfold DotDims.lhsIdx
  rw [dif_neg (show ¬(0 : Fin S2000x168.rank) ∈ dot_S2000x168_S168x512_S2000x512_1_0_0_1_n_n.lhsBatch by decide), dif_pos (show (0 : Fin S2000x168.rank) ∈ dot_S2000x168_S168x512_S2000x512_1_0_0_1_n_n.lhsNonContracting by decide)]
  rfl
theorem d168_l1 (i : S2000x512.Idx) (q : dot_S2000x168_S168x512_S2000x512_1_0_0_1_n_n.contr.Idx) : (dot_S2000x168_S168x512_S2000x512_1_0_0_1_n_n.lhsIdx i q 1).val = (q ⟨0, by decide⟩).val :=
  dot_S2000x168_S168x512_S2000x512_1_0_0_1_n_n.lhsIdx_val_of_single rfl i q
theorem d168_r0 (i : S2000x512.Idx) (q : dot_S2000x168_S168x512_S2000x512_1_0_0_1_n_n.contr.Idx) : (dot_S2000x168_S168x512_S2000x512_1_0_0_1_n_n.rhsIdx i q 0).val = (q ⟨0, by decide⟩).val :=
  dot_S2000x168_S168x512_S2000x512_1_0_0_1_n_n.rhsIdx_val_of_single rfl i q
theorem d168_r1 (i : S2000x512.Idx) (q : dot_S2000x168_S168x512_S2000x512_1_0_0_1_n_n.contr.Idx) : (dot_S2000x168_S168x512_S2000x512_1_0_0_1_n_n.rhsIdx i q 1).val = (i 1).val := by
  unfold DotDims.rhsIdx
  rw [dif_neg (show ¬(1 : Fin S168x512.rank) ∈ dot_S2000x168_S168x512_S2000x512_1_0_0_1_n_n.rhsBatch by decide), dif_pos (show (1 : Fin S168x512.rank) ∈ dot_S2000x168_S168x512_S2000x512_1_0_0_1_n_n.rhsNonContracting by decide)]
  rfl

theorem d512_l0 (i : S2000x64.Idx) (q : dot_S2000x512_S512x64_S2000x64_1_0_0_1_n_n.contr.Idx) : (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
theorem d512_l1 (i : S2000x64.Idx) (q : dot_S2000x512_S512x64_S2000x64_1_0_0_1_n_n.contr.Idx) : (dot_S2000x512_S512x64_S2000x64_1_0_0_1_n_n.lhsIdx i q 1).val = (q ⟨0, by decide⟩).val :=
  dot_S2000x512_S512x64_S2000x64_1_0_0_1_n_n.lhsIdx_val_of_single rfl i q
theorem d512_r0 (i : S2000x64.Idx) (q : dot_S2000x512_S512x64_S2000x64_1_0_0_1_n_n.contr.Idx) : (dot_S2000x512_S512x64_S2000x64_1_0_0_1_n_n.rhsIdx i q 0).val = (q ⟨0, by decide⟩).val :=
  dot_S2000x512_S512x64_S2000x64_1_0_0_1_n_n.rhsIdx_val_of_single rfl i q
theorem d512_r1 (i : S2000x64.Idx) (q : dot_S2000x512_S512x64_S2000x64_1_0_0_1_n_n.contr.Idx) : (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

theorem d64_l0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem d64_l1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem d64_r0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem d64_r1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-! ## The rectify-and-normalise arithmetic at an entry -/

/-- Over a block `y` and the four one-row blocks: the maximum with 0, minus the mean, times the reciprocal root of the
    offset variance, times the scale, plus the shift — each row block read at the entry's column. -/
theorem normed_entry {a b : ℕ} (y : FVec Ideal ⟨2, ![a, b]⟩ .f32) (v μ g β : FVec Ideal ⟨2, ![1, b]⟩ .f32)
    (hb : (⟨2, ![1, b]⟩ : Shape).Broadcasts ⟨2, ![a, b]⟩) (p : Fin a) (q : Fin b) :
    addf (mulf (mulf (subf (maximumf y (broadcast ⟨2, ![a, b]⟩ (Scalar.ofBits (F := Ideal) .f32 0x00000000#32)))
              (broadcastTo ⟨2, ![a, b]⟩ μ hb))
            (broadcastTo ⟨2, ![a, b]⟩ (rsqrt (addf v (broadcast ⟨2, ![1, b]⟩ (Scalar.ofBits (F := Ideal) .f32 0x3727C5AC#32)))) hb))
          (broadcastTo ⟨2, ![a, b]⟩ g hb))
        (broadcastTo ⟨2, ![a, b]⟩ β hb) (ix2 p q)
      = normedR y g β μ v (ix2 p q) := by
  rw [normedR_ix2, addf_apply, mulf_apply, mulf_apply, subf_apply, maximumf_apply, broadcast_apply,
    broadcastTo_1b_ab_apply, broadcastTo_1b_ab_apply, broadcastTo_1b_ab_apply, broadcastTo_1b_ab_apply]
  rfl

/-! ## The product bodies (regions 1 and 3) -/

/-- The stored block of a product body is the product of the two loaded blocks. -/
theorem pay_mm1 (x : Vec Ideal S2000x64 .f32) (w : Vec Ideal S64x64 .f32) : k1_pay1 (F := Ideal) x w = mmR x w := by
  funext j
  obtain ⟨p, q, rfl⟩ : ∃ (p : Fin 2000) (q : Fin 64), j = ix2 p q := ⟨j 0, j 1, eq_ix2 j⟩
  unfold k1_pay1
  rw [shapeCast_self x, shapeCast_self w, mmR_ix2]
  exact MatmulIx.matmul_zero_ix2 dot_S2000x64_S64x64_S2000x64_1_0_0_1_n_n rfl rfl d64_l0 d64_l1 d64_r0 d64_r1 none _ _ p q

theorem pay_mm3 (x : Vec Ideal S2000x64 .f32) (w : Vec Ideal S64x64 .f32) : k3_pay1 (F := Ideal) x w = mmR x w := by
  funext j
  obtain ⟨p, q, rfl⟩ : ∃ (p : Fin 2000) (q : Fin 64), j = ix2 p q := ⟨j 0, j 1, eq_ix2 j⟩
  unfold k3_pay1
  rw [shapeCast_self x, shapeCast_self w, mmR_ix2]
  exact MatmulIx.matmul_zero_ix2 dot_S2000x64_S64x64_S2000x64_1_0_0_1_n_n rfl rfl d64_l0 d64_l1 d64_r0 d64_r1 none _ _ p q

theorem out1_eq (x0 : Vec Ideal S2000x64 .f32) (x1 : Vec Ideal S64x64 .f32) : out1_2 (F := Ideal) x0 x1 = mmR x0 x1 := by
  unfold out1_2
  rw [View.canon_unit_zero hz]
  simp only [View.ld_unit_zero (S := S2000x64) hz, View.ld_unit_zero (S := S64x64) hz]
  exact pay_mm1 x0 x1

theorem out3_eq (x0 : Vec Ideal S2000x64 .f32) (x1 : Vec Ideal S64x64 .f32) : out3_2 (F := Ideal) x0 x1 = mmR x0 x1 := by
  unfold out3_2
  rw [View.canon_unit_zero hz]
  simp only [View.ld_unit_zero (S := S2000x64) hz, View.ld_unit_zero (S := S64x64) hz]
  exact pay_mm3 x0 x1

/-! ## The rectify-and-normalise bodies (regions 2 and 4) -/

theorem pay_bn2 (x : Vec Ideal S2000x64 .f32) (v μ g β : Vec Ideal S1x64 .f32) :
    k2_pay1 (F := Ideal) x v μ g β = normedR x g β μ v := by
  funext j
  obtain ⟨p, q, rfl⟩ : ∃ (p : Fin 2000) (q : Fin 64), j = ix2 p q := ⟨j 0, j 1, eq_ix2 j⟩
  unfold k2_pay1
  simp only [shapeCast_self]
  exact normed_entry x v μ g β broadcasts_S1x64_S2000x64 p q

theorem pay_bn4 (x : Vec Ideal S2000x64 .f32) (v μ g β : Vec Ideal S1x64 .f32) :
    k4_pay1 (F := Ideal) x v μ g β = normedR x g β μ v := by
  funext j
  obtain ⟨p, q, rfl⟩ : ∃ (p : Fin 2000) (q : Fin 64), j = ix2 p q := ⟨j 0, j 1, eq_ix2 j⟩
  unfold k4_pay1
  simp only [shapeCast_self]
  exact normed_entry x v μ g β broadcasts_S1x64_S2000x64 p q

/-- Region 2's stored block: the window order is (block, scale, shift, mean, variance). -/
theorem out2_eq (x0 : Vec Ideal S2000x64 .f32) (x1 x2 x3 x4 : Vec Ideal S1x64 .f32) :
    out2_5 (F := Ideal) x0 x1 x2 x3 x4 = normedR x0 x1 x2 x3 x4 := by
  unfold out2_5
  rw [View.canon_unit_zero hz]
  simp only [View.ld_unit_zero (S := S2000x64) hz, View.ld_unit_zero (S := S1x64) hz]
  exact pay_bn2 x0 x4 x3 x1 x2

theorem out4_eq (x0 : Vec Ideal S2000x64 .f32) (x1 x2 x3 x4 : Vec Ideal S1x64 .f32) :
    out4_5 (F := Ideal) x0 x1 x2 x3 x4 = normedR x0 x1 x2 x3 x4 := by
  unfold out4_5
  rw [View.canon_unit_zero hz]
  simp only [View.ld_unit_zero (S := S2000x64) hz, View.ld_unit_zero (S := S1x64) hz]
  exact pay_bn4 x0 x4 x3 x1 x2

/-! ## The first body: the two dense layers -/

/-- Its first half: the first layer, rectified and normalised, times the second weight. -/
theorem pay0_2 (x : Vec Ideal S2000x168 .f32) (w0 : Vec Ideal S168x512 .f32) (b0 v0 μ0 g0 β0 : Vec Ideal S1x512 .f32)
    (w1 : Vec Ideal S512x64 .f32) :
    k0_pay2 (F := Ideal) x w0 b0 v0 μ0 g0 β0 w1 = mmR (normedR (linR x w0 b0) g0 β0 μ0 v0) w1 := by
  funext j
  obtain ⟨p, q, rfl⟩ : ∃ (p : Fin 2000) (q : Fin 64), j = ix2 p q := ⟨j 0, j 1, eq_ix2 j⟩
  unfold k0_pay2
  simp only [shapeCast_self]
  rw [mmR_ix2]
  refine (MatmulIx.matmul_zero_ix2 dot_S2000x512_S512x64_S2000x64_1_0_0_1_n_n rfl rfl d512_l0 d512_l1 d512_r0 d512_r1 none _ _ p q).trans ?_
  refine Finset.sum_congr rfl fun k _ => ?_
  rw [truncf_apply, truncf_apply]
  refine congrArg (· * w1 (ix2 k q)) ?_
  refine (normed_entry _ v0 μ0 g0 β0 broadcasts_S1x512_S2000x512 p k).trans ?_
  refine normedR_row _ _ _ _ _ _ p p k ?_
  rw [addf_apply, broadcastTo_1b_ab_apply, linR_ix2]
  exact congrArg (· + b0 (ix2 (0 : Fin 1) k))
    (MatmulIx.matmul_zero_ix2 dot_S2000x168_S168x512_S2000x512_1_0_0_1_n_n rfl rfl d168_l0 d168_l1 d168_r0 d168_r1 none _ _ p k)

/-- The whole stored block of region 0: the two dense layers of the row block.  The window order is (rows, first
    weight, bias, scale, shift, mean, variance, second weight, bias, scale, shift, mean, variance). -/
theorem out0_eq (x0 : Vec Ideal S2000x168 .f32) (x1 : Vec Ideal S168x512 .f32) (x2 x3 x4 x5 x6 : Vec Ideal S1x512 .f32)
    (x7 : Vec Ideal S512x64 .f32) (x8 x9 x10 x11 x12 : Vec Ideal S1x64 .f32) :
    out0_13 (F := Ideal) x0 x1 x2 x3 x4 x5 x6 x7 x8 x9 x10 x11 x12 = mlpR x0 x1 x2 x3 x4 x5 x6 x7 x8 x9 x10 x11 x12 := by
  unfold out0_13
  rw [View.canon_unit_zero hz]
  simp only [View.ld_unit_zero (S := S2000x168) hz, View.ld_unit_zero (S := S168x512) hz, View.ld_unit_zero (S := S1x512) hz,
    View.ld_unit_zero (S := S512x64) hz, View.ld_unit_zero (S := S1x64) hz]
  funext j
  obtain ⟨p, q, rfl⟩ : ∃ (p : Fin 2000) (q : Fin 64), j = ix2 p q := ⟨j 0, j 1, eq_ix2 j⟩
  unfold k0_pay1
  simp only [shapeCast_self]
  unfold mlpR
  refine (normed_entry _ x12 x11 x9 x10 broadcasts_S1x64_S2000x64 p q).trans ?_
  refine normedR_row _ _ _ _ _ _ p p q ?_
  rw [addf_apply, broadcastTo_1b_ab_apply, linR_ix2, pay0_2]
  rfl

end Cert.KernelIdeal.Bodies

end
-- ==== Proof.Regions.lean ====
/-
  From blocks to arrays: each tiled region's output array as one layer of the arrays it is entered with.

  A region runs its body at fifty grid points; at point t the body sees rows 2000 t … 2000 t + 1999 of the region's first
  array and the whole of every other one, and its stored block is written back to the same rows of the output array.
  Every layer here reads, at a row, that row of its first operand only; so the block written at point t is block t of
  the layer applied to the whole arrays, and the fifty blocks tile the output array.  Everything is stated at
  whatever contents `V` the region finds in its arrays.
-/
import proofs.«103397_j44178033607255_2_alg».proof.Proof.Bodies

set_option maxRecDepth 16384

noncomputable section

namespace Cert.KernelIdeal.Regions

open Cert.KernelIdeal Cert.KernelIdeal.Gen Cert.Net Cert.KernelIdeal.Bodies
open Idealize.ShloMosaic Idealize.ShloMosaic.TcCoe Idealize.ShloMosaic.ValueIdx
open Idealize.ShloMosaic.Pipeline (Dat)

/-- A layer that reads, at a row, that row of its operand only, computed on the row tile `T` of an array (rows
    `T·r … T·r + r − 1`), is at the tile's entry (p, q) the layer of the whole array at (T·r + p, q). -/
theorem tile_eq {A r K b : ℕ} (f : ∀ {a : ℕ}, Mat a K → Mat a b)
    (hf : ∀ {a a' : ℕ} (x : Mat a K) (x' : Mat a' K) (p : Fin a) (p' : Fin a') (q : Fin b),
      (∀ k, x (ix2 p k) = x' (ix2 p' k)) → f x (ix2 p q) = f x' (ix2 p' q))
    (X : Mat A K) (xb : Mat r K) (T : ℕ)
    (hrow : ∀ (p : Fin r) (k : Fin K) (hP : T * r + p.val < A), xb (ix2 p k) = X (ix2 ⟨T * r + p.val, hP⟩ k))
    (j : (⟨2, ![r, b]⟩ : Shape).Idx) (J : (⟨2, ![A, b]⟩ : Shape).Idx)
    (h0 : (J 0).val = T * r + (j 0).val) (h1 : (J 1).val = (j 1).val) : f xb j = f X J := by
  obtain ⟨p, q, rfl⟩ : ∃ (p : Fin r) (q : Fin b), j = ix2 p q := ⟨j 0, j 1, eq_ix2 j⟩
  obtain ⟨P, Q, rfl⟩ : ∃ (P : Fin A) (Q : Fin b), J = ix2 P Q := ⟨J 0, J 1, eq_ix2 J⟩
  have hQ : Q = q := Fin.ext h1
  subst hQ
  have h0' : P.val = T * r + p.val := h0
  have hP : T * r + p.val < A := by have := P.isLt; omega
  refine hf xb X p P Q fun k => ?_
  rw [hrow p k hP]
  exact congrArg (fun z => X (ix2 z k)) (Fin.ext h0'.symm)

variable (V : (c : Dev nD) → (b : Ref sig .tc) → Buf (Elt Ideal) ((c : Thread nD τ).loc b)) (c : Dev nD)

/-! ## Region 1: the first graph layer's product with its weight -/

/-- The printed index maps of region 1, decided once over its fifty points: the row tile and the output tile sit at
    block row `t`, every other window at block (0, 0). -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The row tile at point `t`: rows `2000 t … 2000 t + 1999` of the array the region finds. -/
theorem rows1 (t : Fin cfg1.N) (p : Fin 2000) (k : Fin 64) (hP : t.val * 2000 + p.val < 100000) :
    (iblk1 V c 0 t : Vec Ideal S2000x64 .f32) (ix2 p k) = (V c main_v46 : S100000x64.Idx → EReal) (ix2 ⟨t.val * 2000 + p.val, hP⟩ k) := by
  obtain ⟨e0, e1, -, -, -, -⟩ := idx1 t
  unfold iblk1
  rw [View.read_apply]
  show V c main_v46 _ = V c main_v46 _
  congr 1
  funext a; apply Fin.ext
  match a with
  | ⟨0, _⟩ => show win1_0.index t 0 * 2000 + 1 * p.val = t.val * 2000 + p.val; rw [e0]; omega
  | ⟨1, _⟩ => show win1_0.index t 1 * 64 + 1 * k.val = k.val; rw [e1]; omega

/-- Window 1's block is its whole array at every point. -/
theorem whole1_1 (t : Fin cfg1.N) : (iblk1 V c 1 t : Vec Ideal S64x64 .f32) = V c main_v47 := by
  obtain ⟨-, -, e0, e1, -, -⟩ := idx1 t
  funext x
  unfold iblk1
  rw [View.read_apply]
  show V c main_v47 _ = V c main_v47 x
  congr 1
  funext a; apply Fin.ext
  match a with
  | ⟨0, _⟩ => show win1_1.index t 0 * 64 + 1 * (x 0).val = (x 0).val; rw [e0]; omega
  | ⟨1, _⟩ => show win1_1.index t 1 * 64 + 1 * (x 1).val = (x 1).val; rw [e1]; omega

/-- WHAT POINT `t` WRITES BACK is block `t` of the layer applied to the arrays the region finds. -/
theorem flushed1 (t : Fin cfg1.N) :
    (dat1 (F := Ideal) V c).flushed 2 t = ((cfg1.win 2).blk t).view.read (Elt Ideal) (mmR (V c main_v46) (V c main_v47)) := by
  show (cfg1.win 2).cut (grid1.coords t) ((dat1 V c).after 2 t) = _
  rw [after1_2, out1_eq (iblk1 V c 0 t) (iblk1 V c 1 t)]
  rw [whole1_1 V c t]
  obtain ⟨-, -, -, -, e4, e5⟩ := idx1 t
  funext j
  refine tile_eq (fun x => mmR x (V c main_v47)) (fun x x' p p' q h => mmR_row x x' _ p p' q h)
    (V c main_v46) (iblk1 V c 0 t) t.val (fun p k hP => rows1 V c t p k hP) j (((cfg1.win 2).blk t).view.emb j) ?_ ?_
  · show win1_2.index t 0 * 2000 + 1 * (j 0).val = t.val * 2000 + (j 0).val; rw [e4]; omega
  · show win1_2.index t 1 * 64 + 1 * (j 1).val = (j 1).val; rw [e5]; omega

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v48).slice (win1_2.rect t)).set ↔ _
  rw [View.set_slice_whole, Rect.mem_set_unit]
  exact Iff.rfl

/-- The fifty row tiles cover the output array: row `r` is in tile `r / 2000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  have hlt : (i 0).val / 2000 < cfg1.N := by rw [hN]; omega
  obtain ⟨-, -, -, -, e4, e5⟩ := idx1 ⟨(i 0).val / 2000, hlt⟩
  refine ⟨⟨(i 0).val / 2000, hlt⟩, flush1_2 _, (mem_blk1 _ i).mpr fun a => ?_⟩
  match a with
  | ⟨0, _⟩ =>
    show win1_2.index ⟨(i 0).val / 2000, hlt⟩ 0 * 2000 ≤ (i 0).val ∧ (i 0).val < win1_2.index ⟨(i 0).val / 2000, hlt⟩ 0 * 2000 + 2000
    rw [e4]; show (i 0).val / 2000 * 2000 ≤ (i 0).val ∧ (i 0).val < (i 0).val / 2000 * 2000 + 2000; omega
  | ⟨1, _⟩ =>
    show win1_2.index ⟨(i 0).val / 2000, hlt⟩ 1 * 64 ≤ (i 1).val ∧ (i 1).val < win1_2.index ⟨(i 0).val / 2000, hlt⟩ 1 * 64 + 64
    rw [e5]; omega

/-- THE REGION'S VALUE: its output array ends at the layer applied to the arrays the region is entered with. -/
theorem value1 : (dat1 (F := Ideal) V c).arrAt 2 cfg1.N = mmR (V c main_v46) (V c main_v47) :=
  (dat1 V c).arrAt_eq_of_cover 2 (mmR (V c main_v46) (V c main_v47)) (fun t _ => flushed1 V c t) (cover1)

/-! ## Region 2: the first graph layer's rectifier and normalisation -/

/-- The printed index maps of region 2, decided once over its fifty points: the row tile and the output tile sit at
    block row `t`, every other window at block (0, 0). -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- The row tile at point `t`: rows `2000 t … 2000 t + 1999` of the array the region finds. -/
theorem rows2 (t : Fin cfg2.N) (p : Fin 2000) (k : Fin 64) (hP : t.val * 2000 + p.val < 100000) :
    (iblk2 V c 0 t : Vec Ideal S2000x64 .f32) (ix2 p k) = (V c main_v64 : S100000x64.Idx → EReal) (ix2 ⟨t.val * 2000 + p.val, hP⟩ k) := by
  obtain ⟨e0, e1, -, -, -, -, -, -, -, -, -, -⟩ := idx2 t
  unfold iblk2
  rw [View.read_apply]
  show V c main_v64 _ = V c main_v64 _
  congr 1
  funext a; apply Fin.ext
  match a with
  | ⟨0, _⟩ => show win2_0.index t 0 * 2000 + 1 * p.val = t.val * 2000 + p.val; rw [e0]; omega
  | ⟨1, _⟩ => show win2_0.index t 1 * 64 + 1 * k.val = k.val; rw [e1]; omega

/-- Window 1's block is its whole array at every point. -/
theorem whole2_1 (t : Fin cfg2.N) : (iblk2 V c 1 t : Vec Ideal S1x64 .f32) = V c main_v65 := by
  obtain ⟨-, -, e0, e1, -, -, -, -, -, -, -, -⟩ := idx2 t
  funext x
  unfold iblk2
  rw [View.read_apply]
  show V c main_v65 _ = V c main_v65 x
  congr 1
  funext a; apply Fin.ext
  match a with
  | ⟨0, _⟩ => show win2_1.index t 0 * 1 + 1 * (x 0).val = (x 0).val; rw [e0]; omega
  | ⟨1, _⟩ => show win2_1.index t 1 * 64 + 1 * (x 1).val = (x 1).val; rw [e1]; omega

/-- Window 2's block is its whole array at every point. -/
theorem whole2_2 (t : Fin cfg2.N) : (iblk2 V c 2 t : Vec Ideal S1x64 .f32) = V c main_v66 := by
  obtain ⟨-, -, -, -, e0, e1, -, -, -, -, -, -⟩ := idx2 t
  funext x
  unfold iblk2
  rw [View.read_apply]
  show V c main_v66 _ = V c main_v66 x
  congr 1
  funext a; apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- Window 3's block is its whole array at every point. -/
theorem whole2_3 (t : Fin cfg2.N) : (iblk2 V c 3 t : Vec Ideal S1x64 .f32) = V c main_v67 := by
  obtain ⟨-, -, -, -, -, -, e0, e1, -, -, -, -⟩ := idx2 t
  funext x
  unfold iblk2
  rw [View.read_apply]
  show V c main_v67 _ = V c main_v67 x
  congr 1
  funext a; apply Fin.ext
  match a with
  | ⟨0, _⟩ => show win2_3.index t 0 * 1 + 1 * (x 0).val = (x 0).val; rw [e0]; omega
  | ⟨1, _⟩ => show win2_3.index t 1 * 64 + 1 * (x 1).val = (x 1).val; rw [e1]; omega

/-- Window 4's block is its whole array at every point. -/
theorem whole2_4 (t : Fin cfg2.N) : (iblk2 V c 4 t : Vec Ideal S1x64 .f32) = V c main_v68 := by
  obtain ⟨-, -, -, -, -, -, -, -, e0, e1, -, -⟩ := idx2 t
  funext x
  unfold iblk2
  rw [View.read_apply]
  show V c main_v68 _ = V c main_v68 x
  congr 1
  funext a; apply Fin.ext
  match a with
  | ⟨0, _⟩ => show win2_4.index t 0 * 1 + 1 * (x 0).val = (x 0).val; rw [e0]; omega
  | ⟨1, _⟩ => show win2_4.index t 1 * 64 + 1 * (x 1).val = (x 1).val; rw [e1]; omega

/-- WHAT POINT `t` WRITES BACK is block `t` of the layer applied to the arrays the region finds. -/
theorem flushed2 (t : Fin cfg2.N) :
    (dat2 (F := Ideal) V c).flushed 5 t = ((cfg2.win 5).blk t).view.read (Elt Ideal) (normedR (V c main_v64) (V c main_v65) (V c main_v66) (V c main_v67) (V c main_v68)) := by
  show (cfg2.win 5).cut (grid2.coords t) ((dat2 V c).after 5 t) = _
  rw [after2_5, out2_eq (iblk2 V c 0 t) (iblk2 V c 1 t) (iblk2 V c 2 t) (iblk2 V c 3 t) (iblk2 V c 4 t)]
  rw [whole2_1 V c t, whole2_2 V c t, whole2_3 V c t, whole2_4 V c t]
  obtain ⟨-, -, -, -, -, -, -, -, -, -, e4, e5⟩ := idx2 t
  funext j
  refine tile_eq (fun x => normedR x (V c main_v65) (V c main_v66) (V c main_v67) (V c main_v68)) (fun y y' p p' q h => normedR_row y y' _ _ _ _ p p' q (h q))
    (V c main_v64) (iblk2 V c 0 t) t.val (fun p k hP => rows2 V c t p k hP) j (((cfg2.win 5).blk t).view.emb j) ?_ ?_
  · show win2_5.index t 0 * 2000 + 1 * (j 0).val = t.val * 2000 + (j 0).val; rw [e4]; omega
  · show win2_5.index t 1 * 64 + 1 * (j 1).val = (j 1).val; rw [e5]; omega

/-- An index of the output array is in point `t`'s block iff each coordinate is in the block's range on its axis. -/
theorem mem_blk2 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v69).slice (win2_5.rect t)).set ↔ _
  rw [View.set_slice_whole, Rect.mem_set_unit]
  exact Iff.rfl

/-- The fifty row tiles cover the output array: row `r` is in tile `r / 2000`. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  have hlt : (i 0).val / 2000 < cfg2.N := by rw [hN]; omega
  obtain ⟨-, -, -, -, -, -, -, -, -, -, e4, e5⟩ := idx2 ⟨(i 0).val / 2000, hlt⟩
  refine ⟨⟨(i 0).val / 2000, hlt⟩, flush2_5 _, (mem_blk2 _ i).mpr fun a => ?_⟩
  match a with
  | ⟨0, _⟩ =>
    show win2_5.index ⟨(i 0).val / 2000, hlt⟩ 0 * 2000 ≤ (i 0).val ∧ (i 0).val < win2_5.index ⟨(i 0).val / 2000, hlt⟩ 0 * 2000 + 2000
    rw [e4]; show (i 0).val / 2000 * 2000 ≤ (i 0).val ∧ (i 0).val < (i 0).val / 2000 * 2000 + 2000; omega
  | ⟨1, _⟩ =>
    show win2_5.index ⟨(i 0).val / 2000, hlt⟩ 1 * 64 ≤ (i 1).val ∧ (i 1).val < win2_5.index ⟨(i 0).val / 2000, hlt⟩ 1 * 64 + 64
    rw [e5]; omega

/-- THE REGION'S VALUE: its output array ends at the layer applied to the arrays the region is entered with. -/
theorem value2 : (dat2 (F := Ideal) V c).arrAt 5 cfg2.N = normedR (V c main_v64) (V c main_v65) (V c main_v66) (V c main_v67) (V c main_v68) :=
  (dat2 V c).arrAt_eq_of_cover 5 (normedR (V c main_v64) (V c main_v65) (V c main_v66) (V c main_v67) (V c main_v68)) (fun t _ => flushed2 V c t) (cover2)

/-! ## Region 3: the second graph layer's product with its weight -/

/-- The printed index maps of region 3, decided once over its fifty points: the row tile and the output tile sit at
    block row `t`, every other window at block (0, 0). -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The row tile at point `t`: rows `2000 t … 2000 t + 1999` of the array the region finds. -/
theorem rows3 (t : Fin cfg3.N) (p : Fin 2000) (k : Fin 64) (hP : t.val * 2000 + p.val < 100000) :
    (iblk3 V c 0 t : Vec Ideal S2000x64 .f32) (ix2 p k) = (V c main_v69 : S100000x64.Idx → EReal) (ix2 ⟨t.val * 2000 + p.val, hP⟩ k) := by
  obtain ⟨e0, e1, -, -, -, -⟩ := idx3 t
  unfold iblk3
  rw [View.read_apply]
  show V c main_v69 _ = V c main_v69 _
  congr 1
  funext a; apply Fin.ext
  match a with
  | ⟨0, _⟩ => show win3_0.index t 0 * 2000 + 1 * p.val = t.val * 2000 + p.val; rw [e0]; omega
  | ⟨1, _⟩ => show win3_0.index t 1 * 64 + 1 * k.val = k.val; rw [e1]; omega

/-- Window 1's block is its whole array at every point. -/
theorem whole3_1 (t : Fin cfg3.N) : (iblk3 V c 1 t : Vec Ideal S64x64 .f32) = V c main_v70 := by
  obtain ⟨-, -, e0, e1, -, -⟩ := idx3 t
  funext x
  unfold iblk3
  rw [View.read_apply]
  show V c main_v70 _ = V c main_v70 x
  congr 1
  funext a; apply Fin.ext
  match a with
  | ⟨0, _⟩ => show win3_1.index t 0 * 64 + 1 * (x 0).val = (x 0).val; rw [e0]; omega
  | ⟨1, _⟩ => show win3_1.index t 1 * 64 + 1 * (x 1).val = (x 1).val; rw [e1]; omega

/-- WHAT POINT `t` WRITES BACK is block `t` of the layer applied to the arrays the region finds. -/
theorem flushed3 (t : Fin cfg3.N) :
    (dat3 (F := Ideal) V c).flushed 2 t = ((cfg3.win 2).blk t).view.read (Elt Ideal) (mmR (V c main_v69) (V c main_v70)) := by
  show (cfg3.win 2).cut (grid3.coords t) ((dat3 V c).after 2 t) = _
  rw [after3_2, out3_eq (iblk3 V c 0 t) (iblk3 V c 1 t)]
  rw [whole3_1 V c t]
  obtain ⟨-, -, -, -, e4, e5⟩ := idx3 t
  funext j
  refine tile_eq (fun x => mmR x (V c main_v70)) (fun x x' p p' q h => mmR_row x x' _ p p' q h)
    (V c main_v69) (iblk3 V c 0 t) t.val (fun p k hP => rows3 V c t p k hP) j (((cfg3.win 2).blk t).view.emb j) ?_ ?_
  · show win3_2.index t 0 * 2000 + 1 * (j 0).val = t.val * 2000 + (j 0).val; rw [e4]; omega
  · show win3_2.index t 1 * 64 + 1 * (j 1).val = (j 1).val; rw [e5]; omega

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v71).slice (win3_2.rect t)).set ↔ _
  rw [View.set_slice_whole, Rect.mem_set_unit]
  exact Iff.rfl

/-- The fifty row tiles cover the output array: row `r` is in tile `r / 2000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  have hlt : (i 0).val / 2000 < cfg3.N := by rw [hN]; omega
  obtain ⟨-, -, -, -, e4, e5⟩ := idx3 ⟨(i 0).val / 2000, hlt⟩
  refine ⟨⟨(i 0).val / 2000, hlt⟩, flush3_2 _, (mem_blk3 _ i).mpr fun a => ?_⟩
  match a with
  | ⟨0, _⟩ =>
    show win3_2.index ⟨(i 0).val / 2000, hlt⟩ 0 * 2000 ≤ (i 0).val ∧ (i 0).val < win3_2.index ⟨(i 0).val / 2000, hlt⟩ 0 * 2000 + 2000
    rw [e4]; show (i 0).val / 2000 * 2000 ≤ (i 0).val ∧ (i 0).val < (i 0).val / 2000 * 2000 + 2000; omega
  | ⟨1, _⟩ =>
    show win3_2.index ⟨(i 0).val / 2000, hlt⟩ 1 * 64 ≤ (i 1).val ∧ (i 1).val < win3_2.index ⟨(i 0).val / 2000, hlt⟩ 1 * 64 + 64
    rw [e5]; omega

/-- THE REGION'S VALUE: its output array ends at the layer applied to the arrays the region is entered with. -/
theorem value3 : (dat3 (F := Ideal) V c).arrAt 2 cfg3.N = mmR (V c main_v69) (V c main_v70) :=
  (dat3 V c).arrAt_eq_of_cover 2 (mmR (V c main_v69) (V c main_v70)) (fun t _ => flushed3 V c t) (cover3)

/-! ## Region 4: the second graph layer's rectifier and normalisation -/

/-- The printed index maps of region 4, decided once over its fifty points: the row tile and the output tile sit at
    block row `t`, every other window at block (0, 0). -/
theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- The row tile at point `t`: rows `2000 t … 2000 t + 1999` of the array the region finds. -/
theorem rows4 (t : Fin cfg4.N) (p : Fin 2000) (k : Fin 64) (hP : t.val * 2000 + p.val < 100000) :
    (iblk4 V c 0 t : Vec Ideal S2000x64 .f32) (ix2 p k) = (V c main_v87 : S100000x64.Idx → EReal) (ix2 ⟨t.val * 2000 + p.val, hP⟩ k) := by
  obtain ⟨e0, e1, -, -, -, -, -, -, -, -, -, -⟩ := idx4 t
  unfold iblk4
  rw [View.read_apply]
  show V c main_v87 _ = V c main_v87 _
  congr 1
  funext a; apply Fin.ext
  match a with
  | ⟨0, _⟩ => show win4_0.index t 0 * 2000 + 1 * p.val = t.val * 2000 + p.val; rw [e0]; omega
  | ⟨1, _⟩ => show win4_0.index t 1 * 64 + 1 * k.val = k.val; rw [e1]; omega

/-- Window 1's block is its whole array at every point. -/
theorem whole4_1 (t : Fin cfg4.N) : (iblk4 V c 1 t : Vec Ideal S1x64 .f32) = V c main_v88 := by
  obtain ⟨-, -, e0, e1, -, -, -, -, -, -, -, -⟩ := idx4 t
  funext x
  unfold iblk4
  rw [View.read_apply]
  show V c main_v88 _ = V c main_v88 x
  congr 1
  funext a; apply Fin.ext
  match a with
  | ⟨0, _⟩ => show win4_1.index t 0 * 1 + 1 * (x 0).val = (x 0).val; rw [e0]; omega
  | ⟨1, _⟩ => show win4_1.index t 1 * 64 + 1 * (x 1).val = (x 1).val; rw [e1]; omega

/-- Window 2's block is its whole array at every point. -/
theorem whole4_2 (t : Fin cfg4.N) : (iblk4 V c 2 t : Vec Ideal S1x64 .f32) = V c main_v89 := by
  obtain ⟨-, -, -, -, e0, e1, -, -, -, -, -, -⟩ := idx4 t
  funext x
  unfold iblk4
  rw [View.read_apply]
  show V c main_v89 _ = V c main_v89 x
  congr 1
  funext a; apply Fin.ext
  match a with
  | ⟨0, _⟩ => show win4_2.index t 0 * 1 + 1 * (x 0).val = (x 0).val; rw [e0]; omega
  | ⟨1, _⟩ => show win4_2.index t 1 * 64 + 1 * (x 1).val = (x 1).val; rw [e1]; omega

/-- Window 3's block is its whole array at every point. -/
theorem whole4_3 (t : Fin cfg4.N) : (iblk4 V c 3 t : Vec Ideal S1x64 .f32) = V c main_v90 := by
  obtain ⟨-, -, -, -, -, -, e0, e1, -, -, -, -⟩ := idx4 t
  funext x
  unfold iblk4
  rw [View.read_apply]
  show V c main_v90 _ = V c main_v90 x
  congr 1
  funext a; apply Fin.ext
  match a with
  | ⟨0, _⟩ => show win4_3.index t 0 * 1 + 1 * (x 0).val = (x 0).val; rw [e0]; omega
  | ⟨1, _⟩ => show win4_3.index t 1 * 64 + 1 * (x 1).val = (x 1).val; rw [e1]; omega

/-- Window 4's block is its whole array at every point. -/
theorem whole4_4 (t : Fin cfg4.N) : (iblk4 V c 4 t : Vec Ideal S1x64 .f32) = V c main_v91 := by
  obtain ⟨-, -, -, -, -, -, -, -, e0, e1, -, -⟩ := idx4 t
  funext x
  unfold iblk4
  rw [View.read_apply]
  show V c main_v91 _ = V c main_v91 x
  congr 1
  funext a; apply Fin.ext
  match a with
  | ⟨0, _⟩ => show win4_4.index t 0 * 1 + 1 * (x 0).val = (x 0).val; rw [e0]; omega
  | ⟨1, _⟩ => show win4_4.index t 1 * 64 + 1 * (x 1).val = (x 1).val; rw [e1]; omega

/-- WHAT POINT `t` WRITES BACK is block `t` of the layer applied to the arrays the region finds. -/
theorem flushed4 (t : Fin cfg4.N) :
    (dat4 (F := Ideal) V c).flushed 5 t = ((cfg4.win 5).blk t).view.read (Elt Ideal) (normedR (V c main_v87) (V c main_v88) (V c main_v89) (V c main_v90) (V c main_v91)) := by
  show (cfg4.win 5).cut (grid4.coords t) ((dat4 V c).after 5 t) = _
  rw [after4_5, out4_eq (iblk4 V c 0 t) (iblk4 V c 1 t) (iblk4 V c 2 t) (iblk4 V c 3 t) (iblk4 V c 4 t)]
  rw [whole4_1 V c t, whole4_2 V c t, whole4_3 V c t, whole4_4 V c t]
  obtain ⟨-, -, -, -, -, -, -, -, -, -, e4, e5⟩ := idx4 t
  funext j
  refine tile_eq (fun x => normedR x (V c main_v88) (V c main_v89) (V c main_v90) (V c main_v91)) (fun y y' p p' q h => normedR_row y y' _ _ _ _ p p' q (h q))
    (V c main_v87) (iblk4 V c 0 t) t.val (fun p k hP => rows4 V c t p k hP) j (((cfg4.win 5).blk t).view.emb j) ?_ ?_
  · show win4_5.index t 0 * 2000 + 1 * (j 0).val = t.val * 2000 + (j 0).val; rw [e4]; omega
  · show win4_5.index t 1 * 64 + 1 * (j 1).val = (j 1).val; rw [e5]; omega

/-- An index of the output array is in point `t`'s block iff each coordinate is in the block's range on its axis. -/
theorem mem_blk4 (t : Fin cfg4.N) (i : S100000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v92).slice (win4_5.rect t)).set ↔ _
  rw [View.set_slice_whole, Rect.mem_set_unit]
  exact Iff.rfl

/-- The fifty row tiles cover the output array: row `r` is in tile `r / 2000`. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 50 := N_4
  have hlt : (i 0).val / 2000 < cfg4.N := by rw [hN]; omega
  obtain ⟨-, -, -, -, -, -, -, -, -, -, e4, e5⟩ := idx4 ⟨(i 0).val / 2000, hlt⟩
  refine ⟨⟨(i 0).val / 2000, hlt⟩, flush4_5 _, (mem_blk4 _ i).mpr fun a => ?_⟩
  match a with
  | ⟨0, _⟩ =>
    show win4_5.index ⟨(i 0).val / 2000, hlt⟩ 0 * 2000 ≤ (i 0).val ∧ (i 0).val < win4_5.index ⟨(i 0).val / 2000, hlt⟩ 0 * 2000 + 2000
    rw [e4]; show (i 0).val / 2000 * 2000 ≤ (i 0).val ∧ (i 0).val < (i 0).val / 2000 * 2000 + 2000; omega
  | ⟨1, _⟩ =>
    show win4_5.index ⟨(i 0).val / 2000, hlt⟩ 1 * 64 ≤ (i 1).val ∧ (i 1).val < win4_5.index ⟨(i 0).val / 2000, hlt⟩ 1 * 64 + 64
    rw [e5]; omega

/-- THE REGION'S VALUE: its output array ends at the layer applied to the arrays the region is entered with. -/
theorem value4 : (dat4 (F := Ideal) V c).arrAt 5 cfg4.N = normedR (V c main_v87) (V c main_v88) (V c main_v89) (V c main_v90) (V c main_v91) :=
  (dat4 V c).arrAt_eq_of_cover 5 (normedR (V c main_v87) (V c main_v88) (V c main_v89) (V c main_v90) (V c main_v91)) (fun t _ => flushed4 V c t) (cover4)

/-! ## Region 0: the two dense layers -/

/-- The printed index maps of region 0, decided once over its fifty points: the row tile and the output tile sit at
    block row `t`, every other window at block (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = t.val
    ∧ win0_13.index t (1 : Fin 2) = 0 :=
  (by decide +kernel : ∀ t : Fin grid0.N, _)

/-- The row tile at point `t`: rows `2000 t … 2000 t + 1999` of the array the region finds. -/
theorem rows0 (t : Fin cfg0.N) (p : Fin 2000) (k : Fin 168) (hP : t.val * 2000 + p.val < 100000) :
    (iblk0 V c 0 t : Vec Ideal S2000x168 .f32) (ix2 p k) = (V c main_arg0 : S100000x168.Idx → EReal) (ix2 ⟨t.val * 2000 + p.val, hP⟩ k) := by
  obtain ⟨e0, e1, -, -, -, -, -, -, -, -, -, -, -, -, -, -, -, -, -, -, -, -, -, -, -, -, -, -⟩ := idx0 t
  unfold iblk0
  rw [View.read_apply]
  show V c main_arg0 _ = V c main_arg0 _
  congr 1
  funext a; apply Fin.ext
  match a with
  | ⟨0, _⟩ => show win0_0.index t 0 * 2000 + 1 * p.val = t.val * 2000 + p.val; rw [e0]; omega
  | ⟨1, _⟩ => show win0_0.index t 1 * 168 + 1 * k.val = k.val; rw [e1]; omega

/-- Window 1's block is its whole array at every point. -/
theorem whole0_1 (t : Fin cfg0.N) : (iblk0 V c 1 t : Vec Ideal S168x512 .f32) = V c main_v34 := by
  obtain ⟨-, -, e0, e1, -, -, -, -, -, -, -, -, -, -, -, -, -, -, -, -, -, -, -, -, -, -, -, -⟩ := idx0 t
  funext x
  unfold iblk0
  rw [View.read_apply]
  show V c main_v34 _ = V c main_v34 x
  congr 1
  funext a; apply Fin.ext
  match a with
  | ⟨0, _⟩ => show win0_1.index t 0 * 168 + 1 * (x 0).val = (x 0).val; rw [e0]; omega
  | ⟨1, _⟩ => show win0_1.index t 1 * 512 + 1 * (x 1).val = (x 1).val; rw [e1]; omega

/-- Window 2's block is its whole array at every point. -/
theorem whole0_2 (t : Fin cfg0.N) : (iblk0 V c 2 t : Vec Ideal S1x512 .f32) = V c main_v36 := by
  obtain ⟨-, -, -, -, e0, e1, -, -, -, -, -, -, -, -, -, -, -, -, -, -, -, -, -, -, -, -, -, -⟩ := idx0 t
  funext x
  unfold iblk0
  rw [View.read_apply]
  show V c main_v36 _ = V c main_v36 x
  congr 1
  funext a; apply Fin.ext
  match a with
  | ⟨0, _⟩ => show win0_2.index t 0 * 1 + 1 * (x 0).val = (x 0).val; rw [e0]; omega
  | ⟨1, _⟩ => show win0_2.index t 1 * 512 + 1 * (x 1).val = (x 1).val; rw [e1]; omega

/-- Window 3's block is its whole array at every point. -/
theorem whole0_3 (t : Fin cfg0.N) : (iblk0 V c 3 t : Vec Ideal S1x512 .f32) = V c main_v37 := by
  obtain ⟨-, -, -, -, -, -, e0, e1, -, -, -, -, -, -, -, -, -, -, -, -, -, -, -, -, -, -, -, -⟩ := idx0 t
  funext x
  unfold iblk0
  rw [View.read_apply]
  show V c main_v37 _ = V c main_v37 x
  congr 1
  funext a; apply Fin.ext
  match a with
  | ⟨0, _⟩ => show win0_3.index t 0 * 1 + 1 * (x 0).val = (x 0).val; rw [e0]; omega
  | ⟨1, _⟩ => show win0_3.index t 1 * 512 + 1 * (x 1).val = (x 1).val; rw [e1]; omega

/-- Window 4's block is its whole array at every point. -/
theorem whole0_4 (t : Fin cfg0.N) : (iblk0 V c 4 t : Vec Ideal S1x512 .f32) = V c main_v38 := by
  obtain ⟨-, -, -, -, -, -, -, -, e0, e1, -, -, -, -, -, -, -, -, -, -, -, -, -, -, -, -, -, -⟩ := idx0 t
  funext x
  unfold iblk0
  rw [View.read_apply]
  show V c main_v38 _ = V c main_v38 x
  congr 1
  funext a; apply Fin.ext
  match a with
  | ⟨0, _⟩ => show win0_4.index t 0 * 1 + 1 * (x 0).val = (x 0).val; rw [e0]; omega
  | ⟨1, _⟩ => show win0_4.index t 1 * 512 + 1 * (x 1).val = (x 1).val; rw [e1]; omega

/-- Window 5's block is its whole array at every point. -/
theorem whole0_5 (t : Fin cfg0.N) : (iblk0 V c 5 t : Vec Ideal S1x512 .f32) = V c main_v39 := by
  obtain ⟨-, -, -, -, -, -, -, -, -, -, e0, e1, -, -, -, -, -, -, -, -, -, -, -, -, -, -, -, -⟩ := idx0 t
  funext x
  unfold iblk0
  rw [View.read_apply]
  show V c main_v39 _ = V c main_v39 x
  congr 1
  funext a; apply Fin.ext
  match a with
  | ⟨0, _⟩ => show win0_5.index t 0 * 1 + 1 * (x 0).val = (x 0).val; rw [e0]; omega
  | ⟨1, _⟩ => show win0_5.index t 1 * 512 + 1 * (x 1).val = (x 1).val; rw [e1]; omega

/-- Window 6's block is its whole array at every point. -/
theorem whole0_6 (t : Fin cfg0.N) : (iblk0 V c 6 t : Vec Ideal S1x512 .f32) = V c main_v40 := by
  obtain ⟨-, -, -, -, -, -, -, -, -, -, -, -, e0, e1, -, -, -, -, -, -, -, -, -, -, -, -, -, -⟩ := idx0 t
  funext x
  unfold iblk0
  rw [View.read_apply]
  show V c main_v40 _ = V c main_v40 x
  congr 1
  funext a; apply Fin.ext
  match a with
  | ⟨0, _⟩ => show win0_6.index t 0 * 1 + 1 * (x 0).val = (x 0).val; rw [e0]; omega
  | ⟨1, _⟩ => show win0_6.index t 1 * 512 + 1 * (x 1).val = (x 1).val; rw [e1]; omega

/-- Window 7's block is its whole array at every point. -/
theorem whole0_7 (t : Fin cfg0.N) : (iblk0 V c 7 t : Vec Ideal S512x64 .f32) = V c main_v35 := by
  obtain ⟨-, -, -, -, -, -, -, -, -, -, -, -, -, -, e0, e1, -, -, -, -, -, -, -, -, -, -, -, -⟩ := idx0 t
  funext x
  unfold iblk0
  rw [View.read_apply]
  show V c main_v35 _ = V c main_v35 x
  congr 1
  funext a; apply Fin.ext
  match a with
  | ⟨0, _⟩ => show win0_7.index t 0 * 512 + 1 * (x 0).val = (x 0).val; rw [e0]; omega
  | ⟨1, _⟩ => show win0_7.index t 1 * 64 + 1 * (x 1).val = (x 1).val; rw [e1]; omega

/-- Window 8's block is its whole array at every point. -/
theorem whole0_8 (t : Fin cfg0.N) : (iblk0 V c 8 t : Vec Ideal S1x64 .f32) = V c main_v41 := by
  obtain ⟨-, -, -, -, -, -, -, -, -, -, -, -, -, -, -, -, e0, e1, -, -, -, -, -, -, -, -, -, -⟩ := idx0 t
  funext x
  unfold iblk0
  rw [View.read_apply]
  show V c main_v41 _ = V c main_v41 x
  congr 1
  funext a; apply Fin.ext
  match a with
  | ⟨0, _⟩ => show win0_8.index t 0 * 1 + 1 * (x 0).val = (x 0).val; rw [e0]; omega
  | ⟨1, _⟩ => show win0_8.index t 1 * 64 + 1 * (x 1).val = (x 1).val; rw [e1]; omega

/-- Window 9's block is its whole array at every point. -/
theorem whole0_9 (t : Fin cfg0.N) : (iblk0 V c 9 t : Vec Ideal S1x64 .f32) = V c main_v42 := by
  obtain ⟨-, -, -, -, -, -, -, -, -, -, -, -, -, -, -, -, -, -, e0, e1, -, -, -, -, -, -, -, -⟩ := idx0 t
  funext x
  unfold iblk0
  rw [View.read_apply]
  show V c main_v42 _ = V c main_v42 x
  congr 1
  funext a; apply Fin.ext
  match a with
  | ⟨0, _⟩ => show win0_9.index t 0 * 1 + 1 * (x 0).val = (x 0).val; rw [e0]; omega
  | ⟨1, _⟩ => show win0_9.index t 1 * 64 + 1 * (x 1).val = (x 1).val; rw [e1]; omega

/-- Window 10's block is its whole array at every point. -/
theorem whole0_10 (t : Fin cfg0.N) : (iblk0 V c 10 t : Vec Ideal S1x64 .f32) = V c main_v43 := by
  obtain ⟨-, -, -, -, -, -, -, -, -, -, -, -, -, -, -, -, -, -, -, -, e0, e1, -, -, -, -, -, -⟩ := idx0 t
  funext x
  unfold iblk0
  rw [View.read_apply]
  show V c main_v43 _ = V c main_v43 x
  congr 1
  funext a; apply Fin.ext
  match a with
  | ⟨0, _⟩ => show win0_10.index t 0 * 1 + 1 * (x 0).val = (x 0).val; rw [e0]; omega
  | ⟨1, _⟩ => show win0_10.index t 1 * 64 + 1 * (x 1).val = (x 1).val; rw [e1]; omega

/-- Window 11's block is its whole array at every point. -/
theorem whole0_11 (t : Fin cfg0.N) : (iblk0 V c 11 t : Vec Ideal S1x64 .f32) = V c main_v44 := by
  obtain ⟨-, -, -, -, -, -, -, -, -, -, -, -, -, -, -, -, -, -, -, -, -, -, e0, e1, -, -, -, -⟩ := idx0 t
  funext x
  unfold iblk0
  rw [View.read_apply]
  show V c main_v44 _ = V c main_v44 x
  congr 1
  funext a; apply Fin.ext
  match a with
  | ⟨0, _⟩ => show win0_11.index t 0 * 1 + 1 * (x 0).val = (x 0).val; rw [e0]; omega
  | ⟨1, _⟩ => show win0_11.index t 1 * 64 + 1 * (x 1).val = (x 1).val; rw [e1]; omega

/-- Window 12's block is its whole array at every point. -/
theorem whole0_12 (t : Fin cfg0.N) : (iblk0 V c 12 t : Vec Ideal S1x64 .f32) = V c main_v45 := by
  obtain ⟨-, -, -, -, -, -, -, -, -, -, -, -, -, -, -, -, -, -, -, -, -, -, -, -, e0, e1, -, -⟩ := idx0 t
  funext x
  unfold iblk0
  rw [View.read_apply]
  show V c main_v45 _ = V c main_v45 x
  congr 1
  funext a; apply Fin.ext
  match a with
  | ⟨0, _⟩ => show win0_12.index t 0 * 1 + 1 * (x 0).val = (x 0).val; rw [e0]; omega
  | ⟨1, _⟩ => show win0_12.index t 1 * 64 + 1 * (x 1).val = (x 1).val; rw [e1]; omega

/-- WHAT POINT `t` WRITES BACK is block `t` of the layer applied to the arrays the region finds. -/
theorem flushed0 (t : Fin cfg0.N) :
    (dat0 (F := Ideal) V c).flushed 13 t = ((cfg0.win 13).blk t).view.read (Elt Ideal) (mlpR (V c main_arg0) (V c main_v34) (V c main_v36) (V c main_v37) (V c main_v38) (V c main_v39) (V c main_v40) (V c main_v35) (V c main_v41) (V c main_v42) (V c main_v43) (V c main_v44) (V c main_v45)) := by
  show (cfg0.win 13).cut (grid0.coords t) ((dat0 V c).after 13 t) = _
  rw [after0_13, out0_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)]
  rw [whole0_1 V c t, whole0_2 V c t, whole0_3 V c t, whole0_4 V c t, whole0_5 V c t, whole0_6 V c t, whole0_7 V c t, whole0_8 V c t, whole0_9 V c t, whole0_10 V c t, whole0_11 V c t, whole0_12 V c t]
  obtain ⟨-, -, -, -, -, -, -, -, -, -, -, -, -, -, -, -, -, -, -, -, -, -, -, -, -, -, e4, e5⟩ := idx0 t
  funext j
  refine tile_eq (fun x => mlpR x (V c main_v34) (V c main_v36) (V c main_v37) (V c main_v38) (V c main_v39) (V c main_v40) (V c main_v35) (V c main_v41) (V c main_v42) (V c main_v43) (V c main_v44) (V c main_v45)) (fun x x' p p' q h => mlpR_row x x' _ _ _ _ _ _ _ _ _ _ _ _ p p' q h)
    (V c main_arg0) (iblk0 V c 0 t) t.val (fun p k hP => rows0 V c t p k hP) j (((cfg0.win 13).blk t).view.emb j) ?_ ?_
  · show win0_13.index t 0 * 2000 + 1 * (j 0).val = t.val * 2000 + (j 0).val; rw [e4]; omega
  · show win0_13.index t 1 * 64 + 1 * (j 1).val = (j 1).val; rw [e5]; omega

/-- An index of the output array is in point `t`'s block iff each coordinate is in the block's range on its axis. -/
theorem mem_blk0 (t : Fin cfg0.N) (i : S100000x64.Idx) :
    i ∈ ((cfg0.win 13).blk t).view.set ↔ ∀ a : Fin 2, win0_13.index t a * S2000x64.size a ≤ (i a).val ∧ (i a).val < win0_13.index t a * S2000x64.size a + S2000x64.size a := by
  show i ∈ ((View.whole main_v46).slice (win0_13.rect t)).set ↔ _
  rw [View.set_slice_whole, Rect.mem_set_unit]
  exact Iff.rfl

/-- The fifty row tiles cover the output array: row `r` is in tile `r / 2000`. -/
theorem cover0 (i : S100000x64.Idx) :
    ∃ t : Fin cfg0.N, (cfg0.win 13).flush t = true ∧ i ∈ ((cfg0.win 13).blk t).view.set := by
  have hi0 : (i 0).val < 100000 := (i 0).isLt
  have hi1 : (i 1).val < 64 := (i 1).isLt
  have hN : cfg0.N = 50 := N_0
  have hlt : (i 0).val / 2000 < cfg0.N := by rw [hN]; omega
  obtain ⟨-, -, -, -, -, -, -, -, -, -, -, -, -, -, -, -, -, -, -, -, -, -, -, -, -, -, e4, e5⟩ := idx0 ⟨(i 0).val / 2000, hlt⟩
  refine ⟨⟨(i 0).val / 2000, hlt⟩, flush0_13 _, (mem_blk0 _ i).mpr fun a => ?_⟩
  match a with
  | ⟨0, _⟩ =>
    show win0_13.index ⟨(i 0).val / 2000, hlt⟩ 0 * 2000 ≤ (i 0).val ∧ (i 0).val < win0_13.index ⟨(i 0).val / 2000, hlt⟩ 0 * 2000 + 2000
    rw [e4]; show (i 0).val / 2000 * 2000 ≤ (i 0).val ∧ (i 0).val < (i 0).val / 2000 * 2000 + 2000; omega
  | ⟨1, _⟩ =>
    show win0_13.index ⟨(i 0).val / 2000, hlt⟩ 1 * 64 ≤ (i 1).val ∧ (i 1).val < win0_13.index ⟨(i 0).val / 2000, hlt⟩ 1 * 64 + 64
    rw [e5]; omega

/-- THE REGION'S VALUE: its output array ends at the layer applied to the arrays the region is entered with. -/
theorem value0 : (dat0 (F := Ideal) V c).arrAt 13 cfg0.N = mlpR (V c main_arg0) (V c main_v34) (V c main_v36) (V c main_v37) (V c main_v38) (V c main_v39) (V c main_v40) (V c main_v35) (V c main_v41) (V c main_v42) (V c main_v43) (V c main_v44) (V c main_v45) :=
  (dat0 V c).arrAt_eq_of_cover 13 (mlpR (V c main_arg0) (V c main_v34) (V c main_v36) (V c main_v37) (V c main_v38) (V c main_v39) (V c main_v40) (V c main_v35) (V c main_v41) (V c main_v42) (V c main_v43) (V c main_v44) (V c main_v45)) (fun t _ => flushed0 V c t) (cover0)

end Cert.KernelIdeal.Regions

end
-- ==== Proof.Net.lean ====
/-
  The network both programs compute.

  Between the dense layers (NetSpec) sits the graph aggregation — gather the source rows, scale them by the edge's
  normalised weight, add them up at the target rows, add the bias.  It is the same sequence of array operations on
  both sides, applied to the layer's output `hl` and to values that depend on the edge list and the edge weights
  alone.  It is kept as that sequence (`agg1`, `agg2`), never opened: the two sides are compared through the layer's
  output only.
-/
import proofs.«103397_j44178033607255_2_alg».proof.Proof.NetSpec
import proofs.«103397_j44178033607255_2_alg».proof.Proof.Gen.ReferenceIdeal.Read

noncomputable section

namespace Cert.Net

open Idealize.ShloMosaic Idealize.ShloMosaic.ValueIdx

/-! ## The graph aggregation, as the one sequence of array operations both programs run -/

section Graph

open Cert.ReferenceIdeal Cert.ReferenceIdeal.Gen Cert.ReferenceIdeal.Read

/-- The first graph layer's aggregation of the layer output `hl`: gathered at the (wrapped) source indices, scaled by
    the normalised edge weights, summed at the target indices from the zero array, the bias row added.  The index
    arrays and the weights are the functions of the edge list `x1` and the edge weights `x2` that the reference
    computes for this layer. -/
def agg1 (hl : FVec Ideal S100000x64 .f32) (x1 : (⟨S2x1600000, .i32⟩ : BufTy).Contents (Elt Ideal))
    (x2 : (⟨S1600000, .f32⟩ : BufTy).Contents (Elt Ideal)) (x16 : (⟨S64, .f32⟩ : BufTy).Contents (Elt Ideal)) :
    FVec Ideal S100000x64 .f32 :=
  addf (Host.scatterAdd scatter_S100000x64_S1700000x1_S1700000x64_1_0_0_1 (val_main_v88 (F := Ideal)) (val_main_v89 (F := Ideal) x1)
      (mulf (Host.gather gather_S100000x64_S1700000x1_S1700000x64_1_0_n_n_0_1_164 hl (val_main_v83 (F := Ideal) x1))
        (val_main_v86 (F := Ideal) x1 x2)))
    (val_main_v92 (F := Ideal) x16)

/-- The second graph layer's aggregation: the same operations, with the index arrays and weights as the reference
    computes them again for this layer. -/
def agg2 (hl : FVec Ideal S100000x64 .f32) (x1 : (⟨S2x1600000, .i32⟩ : BufTy).Contents (Elt Ideal))
    (x2 : (⟨S1600000, .f32⟩ : BufTy).Contents (Elt Ideal)) (x22 : (⟨S64, .f32⟩ : BufTy).Contents (Elt Ideal)) :
    FVec Ideal S100000x64 .f32 :=
  addf (Host.scatterAdd scatter_S100000x64_S1700000x1_S1700000x64_1_0_0_1 (val_main_v152 (F := Ideal)) (val_main_v153 (F := Ideal) x1)
      (mulf (Host.gather gather_S100000x64_S1700000x1_S1700000x64_1_0_n_n_0_1_164 hl (val_main_v147 (F := Ideal) x1))
        (val_main_v150 (F := Ideal) x1 x2)))
    (val_main_v156 (F := Ideal) x22)

/-- A vector of 512 entries as a one-row array; of 64 entries; a weight matrix with its axes exchanged. -/
abbrev row512 (v : (⟨S512, .f32⟩ : BufTy).Contents (Elt Ideal)) : FVec Ideal S1x512 .f32 :=
  broadcastInDim S1x512 ![1] bcast_S512_S1x512_1 v
abbrev row64 (v : (⟨S64, .f32⟩ : BufTy).Contents (Elt Ideal)) : FVec Ideal S1x64 .f32 :=
  broadcastInDim S1x64 ![1] bcast_S64_S1x64_1 v

/-- THE NETWORK: the two dense layers, then twice { product with the layer's weight, aggregation over the graph,
    rectify and normalise }. -/
def net (x0 : (⟨S100000x168, .f32⟩ : BufTy).Contents (Elt Ideal)) (x1 : (⟨S2x1600000, .i32⟩ : BufTy).Contents (Elt Ideal))
    (x2 : (⟨S1600000, .f32⟩ : BufTy).Contents (Elt Ideal)) (x3 : (⟨S512x168, .f32⟩ : BufTy).Contents (Elt Ideal))
    (x4 x5 x6 x7 x8 : (⟨S512, .f32⟩ : BufTy).Contents (Elt Ideal)) (x9 : (⟨S64x512, .f32⟩ : BufTy).Contents (Elt Ideal))
    (x10 x11 x12 x13 x14 : (⟨S64, .f32⟩ : BufTy).Contents (Elt Ideal)) (x15 : (⟨S64x64, .f32⟩ : BufTy).Contents (Elt Ideal))
    (x16 x17 x18 x19 x20 : (⟨S64, .f32⟩ : BufTy).Contents (Elt Ideal)) (x21 : (⟨S64x64, .f32⟩ : BufTy).Contents (Elt Ideal))
    (x22 x23 x24 x25 x26 : (⟨S64, .f32⟩ : BufTy).Contents (Elt Ideal)) : FVec Ideal S100000x64 .f32 :=
  normedR
    (agg2
      (mmR
        (normedR
          (agg1
            (mmR
              (mlpR x0 (transpose S168x512 [1, 0] x3 transposes_S512x168_S168x512_1_0)
                (row512 x4) (row512 x5) (row512 x6) (row512 x7) (row512 x8)
                (transpose S512x64 [1, 0] x9 transposes_S64x512_S512x64_1_0)
                (row64 x10) (row64 x11) (row64 x12) (row64 x13) (row64 x14))
              (transpose S64x64 [1, 0] x15 transposes_S64x64_S64x64_1_0))
            x1 x2 x16)
          (row64 x17) (row64 x18) (row64 x19) (row64 x20))
        (transpose S64x64 [1, 0] x21 transposes_S64x64_S64x64_1_0))
      x1 x2 x22)
    (row64 x23) (row64 x24) (row64 x25) (row64 x26)

end Graph

end Cert.Net

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.KHost.lean ====
/-
  The kernel program's host stretches: what the buffers hold when each tiled region is entered.

  Between the tiled regions the program runs array operations on whole buffers.  The contents at a boundary are a
  fold of those operations over the contents at the previous boundary, and a region changes its own arrays only.
  So each buffer a region reads is traced back: through a region, unchanged when the region does not own it;
  through a stretch, unchanged when no operation of the stretch writes it, and otherwise the operation's function
  of what the stretch finds in the buffers it reads.  Traced back to the launch, an argument's buffer holds the
  argument.

  What the regions find: the weight matrices with their axes exchanged, the per-column vectors as one-row arrays,
  the previous region's output untouched, and — in front of the third and the fifth region — the graph aggregation
  of the previous region's output, with the index lists and the normalised edge weights computed once from the
  edge list and the edge weights, equal to what the reference computes for each of its two graph layers.
-/
import proofs.«103397_j44178033607255_2_alg».proof.Proof.Gen.KernelIdeal.Frame
import proofs.«103397_j44178033607255_2_alg».proof.Proof.Net
import proofs.«103397_j44178033607255_2_alg».proof.Proof.LibStretch
import Idealize.ShloMosaic.Lib.StableHlo.Run

noncomputable section

namespace Cert.KernelIdeal.HandHost

open Cert.KernelIdeal Cert.KernelIdeal.Gen Idealize.ShloMosaic Idealize.ShloMosaic.StableHlo Idealize.ShloMosaic.TcCoe

variable (m : (ℓ : Loc nD τ sig) → Buf (Elt Ideal) ℓ) (ρ : Dev nD → PrngReg) (c : Dev nD)

/-! ## An outlined function's operations: contents moved between a buffer's recorded type and the value's type -/

/-- Moving a value to the buffer's recorded type and back gives the value. -/
theorem ofBuf_toBuf {Val : EltTy → Type} {T : BufTy} (x : StableHlo.TRef sig T) (v : T.Contents Val) :
    x.ofBuf (x.toBuf v) = v := by
  obtain ⟨r, rfl, _, _⟩ := x; rfl

/-! ## Carrying a buffer back through the boundaries -/

/-- A buffer none of the three opening stretches writes holds, at the first region's entry, its launch contents. -/
theorem W3_launch (b : Ref sig .tc)
    (h2 : StableHlo.after hostOps0_2 (W2 m ρ c) (Proc.devRef .tc b) = W2 m ρ c (Proc.devRef .tc b))
    (h1 : StableHlo.after hostOps0_1 (W1 m ρ c) (Proc.devRef .tc b) = W1 m ρ c (Proc.devRef .tc b))
    (h0 : StableHlo.after hostOps0 (W0 m ρ c) (Proc.devRef .tc b) = W0 m ρ c (Proc.devRef .tc b)) :
    W3 m ρ c (Proc.devRef .tc b) = m ((c : Thread nD τ).loc b) := h2.trans (h1.trans h0)

/-- The same in front of the third opening stretch. -/
theorem W2_launch (b : Ref sig .tc)
    (h1 : StableHlo.after hostOps0_1 (W1 m ρ c) (Proc.devRef .tc b) = W1 m ρ c (Proc.devRef .tc b))
    (h0 : StableHlo.after hostOps0 (W0 m ρ c) (Proc.devRef .tc b) = W0 m ρ c (Proc.devRef .tc b)) :
    W2 m ρ c (Proc.devRef .tc b) = m ((c : Thread nD τ).loc b) := h1.trans h0

/-- From the second region's exit back to the first region's entry: a buffer neither region owns and the stretch
    between them does not write. -/
theorem W6_eq_W3 (b : Ref sig .tc) (h1 : ∀ w, Pipeline.arrRef spec1 w ≠ b)
    (hs : StableHlo.after hostOps1 (W4 m ρ c) (Proc.devRef .tc b) = W4 m ρ c (Proc.devRef .tc b))
    (h0 : ∀ w, Pipeline.arrRef spec0 w ≠ b) :
    W6 m ρ c (Proc.devRef .tc b) = W3 m ρ c (Proc.devRef .tc b) :=
  (W6_of_ne m ρ c b h1).trans (hs.trans (W4_of_ne m ρ c b h0))

/-- From the third region's exit back to the second region's exit. -/
theorem W8_eq_W6 (b : Ref sig .tc) (h2 : ∀ w, Pipeline.arrRef spec2 w ≠ b)
    (hs : StableHlo.after hostOps2 (W6 m ρ c) (Proc.devRef .tc b) = W6 m ρ c (Proc.devRef .tc b)) :
    W8 m ρ c (Proc.devRef .tc b) = W6 m ρ c (Proc.devRef .tc b) :=
  (W8_of_ne m ρ c b h2).trans hs

/-- From the fourth region's exit back to the third region's exit. -/
theorem W10_eq_W8 (b : Ref sig .tc) (h3 : ∀ w, Pipeline.arrRef spec3 w ≠ b)
    (hs : StableHlo.after hostOps3 (W8 m ρ c) (Proc.devRef .tc b) = W8 m ρ c (Proc.devRef .tc b)) :
    W10 m ρ c (Proc.devRef .tc b) = W8 m ρ c (Proc.devRef .tc b) :=
  (W10_of_ne m ρ c b h3).trans hs

/-! ## The arguments at the boundaries where a stretch reads them -/
theorem W2_arg3 : W2 m ρ c (Proc.devRef .tc main_arg3) = m ((c : Thread nD τ).loc main_arg3) :=
  W2_launch m ρ c main_arg3 (by unwritten hostOps0_1) (by unwritten hostOps0)
theorem W2_arg4 : W2 m ρ c (Proc.devRef .tc main_arg4) = m ((c : Thread nD τ).loc main_arg4) :=
  W2_launch m ρ c main_arg4 (by unwritten hostOps0_1) (by unwritten hostOps0)
theorem W2_arg5 : W2 m ρ c (Proc.devRef .tc main_arg5) = m ((c : Thread nD τ).loc main_arg5) :=
  W2_launch m ρ c main_arg5 (by unwritten hostOps0_1) (by unwritten hostOps0)
theorem W2_arg6 : W2 m ρ c (Proc.devRef .tc main_arg6) = m ((c : Thread nD τ).loc main_arg6) :=
  W2_launch m ρ c main_arg6 (by unwritten hostOps0_1) (by unwritten hostOps0)
theorem W2_arg7 : W2 m ρ c (Proc.devRef .tc main_arg7) = m ((c : Thread nD τ).loc main_arg7) :=
  W2_launch m ρ c main_arg7 (by unwritten hostOps0_1) (by unwritten hostOps0)
theorem W2_arg8 : W2 m ρ c (Proc.devRef .tc main_arg8) = m ((c : Thread nD τ).loc main_arg8) :=
  W2_launch m ρ c main_arg8 (by unwritten hostOps0_1) (by unwritten hostOps0)
theorem W2_arg9 : W2 m ρ c (Proc.devRef .tc main_arg9) = m ((c : Thread nD τ).loc main_arg9) :=
  W2_launch m ρ c main_arg9 (by unwritten hostOps0_1) (by unwritten hostOps0)
theorem W2_arg10 : W2 m ρ c (Proc.devRef .tc main_arg10) = m ((c : Thread nD τ).loc main_arg10) :=
  W2_launch m ρ c main_arg10 (by unwritten hostOps0_1) (by unwritten hostOps0)
theorem W2_arg11 : W2 m ρ c (Proc.devRef .tc main_arg11) = m ((c : Thread nD τ).loc main_arg11) :=
  W2_launch m ρ c main_arg11 (by unwritten hostOps0_1) (by unwritten hostOps0)
theorem W2_arg12 : W2 m ρ c (Proc.devRef .tc main_arg12) = m ((c : Thread nD τ).loc main_arg12) :=
  W2_launch m ρ c main_arg12 (by unwritten hostOps0_1) (by unwritten hostOps0)
theorem W2_arg13 : W2 m ρ c (Proc.devRef .tc main_arg13) = m ((c : Thread nD τ).loc main_arg13) :=
  W2_launch m ρ c main_arg13 (by unwritten hostOps0_1) (by unwritten hostOps0)
theorem W2_arg14 : W2 m ρ c (Proc.devRef .tc main_arg14) = m ((c : Thread nD τ).loc main_arg14) :=
  W2_launch m ρ c main_arg14 (by unwritten hostOps0_1) (by unwritten hostOps0)
theorem W3_arg0 : W3 m ρ c (Proc.devRef .tc main_arg0) = m ((c : Thread nD τ).loc main_arg0) :=
  W3_launch m ρ c main_arg0 (by unwritten hostOps0_2) (by unwritten hostOps0_1) (by unwritten hostOps0)
theorem W3_arg1 : W3 m ρ c (Proc.devRef .tc main_arg1) = m ((c : Thread nD τ).loc main_arg1) :=
  W3_launch m ρ c main_arg1 (by unwritten hostOps0_2) (by unwritten hostOps0_1) (by unwritten hostOps0)
theorem W3_arg2 : W3 m ρ c (Proc.devRef .tc main_arg2) = m ((c : Thread nD τ).loc main_arg2) :=
  W3_launch m ρ c main_arg2 (by unwritten hostOps0_2) (by unwritten hostOps0_1) (by unwritten hostOps0)
theorem W3_arg15 : W3 m ρ c (Proc.devRef .tc main_arg15) = m ((c : Thread nD τ).loc main_arg15) :=
  W3_launch m ρ c main_arg15 (by unwritten hostOps0_2) (by unwritten hostOps0_1) (by unwritten hostOps0)
theorem W3_arg16 : W3 m ρ c (Proc.devRef .tc main_arg16) = m ((c : Thread nD τ).loc main_arg16) :=
  W3_launch m ρ c main_arg16 (by unwritten hostOps0_2) (by unwritten hostOps0_1) (by unwritten hostOps0)
theorem W3_arg17 : W3 m ρ c (Proc.devRef .tc main_arg17) = m ((c : Thread nD τ).loc main_arg17) :=
  W3_launch m ρ c main_arg17 (by unwritten hostOps0_2) (by unwritten hostOps0_1) (by unwritten hostOps0)
theorem W3_arg18 : W3 m ρ c (Proc.devRef .tc main_arg18) = m ((c : Thread nD τ).loc main_arg18) :=
  W3_launch m ρ c main_arg18 (by unwritten hostOps0_2) (by unwritten hostOps0_1) (by unwritten hostOps0)
theorem W3_arg19 : W3 m ρ c (Proc.devRef .tc main_arg19) = m ((c : Thread nD τ).loc main_arg19) :=
  W3_launch m ρ c main_arg19 (by unwritten hostOps0_2) (by unwritten hostOps0_1) (by unwritten hostOps0)
theorem W3_arg20 : W3 m ρ c (Proc.devRef .tc main_arg20) = m ((c : Thread nD τ).loc main_arg20) :=
  W3_launch m ρ c main_arg20 (by unwritten hostOps0_2) (by unwritten hostOps0_1) (by unwritten hostOps0)
theorem W3_arg21 : W3 m ρ c (Proc.devRef .tc main_arg21) = m ((c : Thread nD τ).loc main_arg21) :=
  W3_launch m ρ c main_arg21 (by unwritten hostOps0_2) (by unwritten hostOps0_1) (by unwritten hostOps0)
theorem W3_arg22 : W3 m ρ c (Proc.devRef .tc main_arg22) = m ((c : Thread nD τ).loc main_arg22) :=
  W3_launch m ρ c main_arg22 (by unwritten hostOps0_2) (by unwritten hostOps0_1) (by unwritten hostOps0)
theorem W3_arg23 : W3 m ρ c (Proc.devRef .tc main_arg23) = m ((c : Thread nD τ).loc main_arg23) :=
  W3_launch m ρ c main_arg23 (by unwritten hostOps0_2) (by unwritten hostOps0_1) (by unwritten hostOps0)
theorem W3_arg24 : W3 m ρ c (Proc.devRef .tc main_arg24) = m ((c : Thread nD τ).loc main_arg24) :=
  W3_launch m ρ c main_arg24 (by unwritten hostOps0_2) (by unwritten hostOps0_1) (by unwritten hostOps0)
theorem W3_arg25 : W3 m ρ c (Proc.devRef .tc main_arg25) = m ((c : Thread nD τ).loc main_arg25) :=
  W3_launch m ρ c main_arg25 (by unwritten hostOps0_2) (by unwritten hostOps0_1) (by unwritten hostOps0)
theorem W3_arg26 : W3 m ρ c (Proc.devRef .tc main_arg26) = m ((c : Thread nD τ).loc main_arg26) :=
  W3_launch m ρ c main_arg26 (by unwritten hostOps0_2) (by unwritten hostOps0_1) (by unwritten hostOps0)
theorem W4_arg15 : W4 m ρ c (Proc.devRef .tc main_arg15) = m ((c : Thread nD τ).loc main_arg15) :=
  (W4_of_ne m ρ c main_arg15 (by decide)).trans (W3_arg15 m ρ c)
theorem W6_arg1 : W6 m ρ c (Proc.devRef .tc main_arg1) = m ((c : Thread nD τ).loc main_arg1) :=
  (W6_eq_W3 m ρ c main_arg1 (by decide) (by unwritten hostOps1) (by decide)).trans (W3_arg1 m ρ c)
theorem W6_arg2 : W6 m ρ c (Proc.devRef .tc main_arg2) = m ((c : Thread nD τ).loc main_arg2) :=
  (W6_eq_W3 m ρ c main_arg2 (by decide) (by unwritten hostOps1) (by decide)).trans (W3_arg2 m ρ c)
theorem W6_arg16 : W6 m ρ c (Proc.devRef .tc main_arg16) = m ((c : Thread nD τ).loc main_arg16) :=
  (W6_eq_W3 m ρ c main_arg16 (by decide) (by unwritten hostOps1) (by decide)).trans (W3_arg16 m ρ c)
theorem W6_arg17 : W6 m ρ c (Proc.devRef .tc main_arg17) = m ((c : Thread nD τ).loc main_arg17) :=
  (W6_eq_W3 m ρ c main_arg17 (by decide) (by unwritten hostOps1) (by decide)).trans (W3_arg17 m ρ c)
theorem W6_arg18 : W6 m ρ c (Proc.devRef .tc main_arg18) = m ((c : Thread nD τ).loc main_arg18) :=
  (W6_eq_W3 m ρ c main_arg18 (by decide) (by unwritten hostOps1) (by decide)).trans (W3_arg18 m ρ c)
theorem W6_arg19 : W6 m ρ c (Proc.devRef .tc main_arg19) = m ((c : Thread nD τ).loc main_arg19) :=
  (W6_eq_W3 m ρ c main_arg19 (by decide) (by unwritten hostOps1) (by decide)).trans (W3_arg19 m ρ c)
theorem W6_arg20 : W6 m ρ c (Proc.devRef .tc main_arg20) = m ((c : Thread nD τ).loc main_arg20) :=
  (W6_eq_W3 m ρ c main_arg20 (by decide) (by unwritten hostOps1) (by decide)).trans (W3_arg20 m ρ c)
theorem W6_arg21 : W6 m ρ c (Proc.devRef .tc main_arg21) = m ((c : Thread nD τ).loc main_arg21) :=
  (W6_eq_W3 m ρ c main_arg21 (by decide) (by unwritten hostOps1) (by decide)).trans (W3_arg21 m ρ c)
theorem W6_arg22 : W6 m ρ c (Proc.devRef .tc main_arg22) = m ((c : Thread nD τ).loc main_arg22) :=
  (W6_eq_W3 m ρ c main_arg22 (by decide) (by unwritten hostOps1) (by decide)).trans (W3_arg22 m ρ c)
theorem W6_arg23 : W6 m ρ c (Proc.devRef .tc main_arg23) = m ((c : Thread nD τ).loc main_arg23) :=
  (W6_eq_W3 m ρ c main_arg23 (by decide) (by unwritten hostOps1) (by decide)).trans (W3_arg23 m ρ c)
theorem W6_arg24 : W6 m ρ c (Proc.devRef .tc main_arg24) = m ((c : Thread nD τ).loc main_arg24) :=
  (W6_eq_W3 m ρ c main_arg24 (by decide) (by unwritten hostOps1) (by decide)).trans (W3_arg24 m ρ c)
theorem W6_arg25 : W6 m ρ c (Proc.devRef .tc main_arg25) = m ((c : Thread nD τ).loc main_arg25) :=
  (W6_eq_W3 m ρ c main_arg25 (by decide) (by unwritten hostOps1) (by decide)).trans (W3_arg25 m ρ c)
theorem W6_arg26 : W6 m ρ c (Proc.devRef .tc main_arg26) = m ((c : Thread nD τ).loc main_arg26) :=
  (W6_eq_W3 m ρ c main_arg26 (by decide) (by unwritten hostOps1) (by decide)).trans (W3_arg26 m ρ c)
theorem W8_arg1 : W8 m ρ c (Proc.devRef .tc main_arg1) = m ((c : Thread nD τ).loc main_arg1) :=
  (W8_eq_W6 m ρ c main_arg1 (by decide) (by unwritten hostOps2)).trans (W6_arg1 m ρ c)
theorem W8_arg2 : W8 m ρ c (Proc.devRef .tc main_arg2) = m ((c : Thread nD τ).loc main_arg2) :=
  (W8_eq_W6 m ρ c main_arg2 (by decide) (by unwritten hostOps2)).trans (W6_arg2 m ρ c)
theorem W8_arg21 : W8 m ρ c (Proc.devRef .tc main_arg21) = m ((c : Thread nD τ).loc main_arg21) :=
  (W8_eq_W6 m ρ c main_arg21 (by decide) (by unwritten hostOps2)).trans (W6_arg21 m ρ c)
theorem W8_arg22 : W8 m ρ c (Proc.devRef .tc main_arg22) = m ((c : Thread nD τ).loc main_arg22) :=
  (W8_eq_W6 m ρ c main_arg22 (by decide) (by unwritten hostOps2)).trans (W6_arg22 m ρ c)
theorem W8_arg23 : W8 m ρ c (Proc.devRef .tc main_arg23) = m ((c : Thread nD τ).loc main_arg23) :=
  (W8_eq_W6 m ρ c main_arg23 (by decide) (by unwritten hostOps2)).trans (W6_arg23 m ρ c)
theorem W8_arg24 : W8 m ρ c (Proc.devRef .tc main_arg24) = m ((c : Thread nD τ).loc main_arg24) :=
  (W8_eq_W6 m ρ c main_arg24 (by decide) (by unwritten hostOps2)).trans (W6_arg24 m ρ c)
theorem W8_arg25 : W8 m ρ c (Proc.devRef .tc main_arg25) = m ((c : Thread nD τ).loc main_arg25) :=
  (W8_eq_W6 m ρ c main_arg25 (by decide) (by unwritten hostOps2)).trans (W6_arg25 m ρ c)
theorem W8_arg26 : W8 m ρ c (Proc.devRef .tc main_arg26) = m ((c : Thread nD τ).loc main_arg26) :=
  (W8_eq_W6 m ρ c main_arg26 (by decide) (by unwritten hostOps2)).trans (W6_arg26 m ρ c)
theorem W10_arg1 : W10 m ρ c (Proc.devRef .tc main_arg1) = m ((c : Thread nD τ).loc main_arg1) :=
  (W10_eq_W8 m ρ c main_arg1 (by decide) (by unwritten hostOps3)).trans (W8_arg1 m ρ c)
theorem W10_arg2 : W10 m ρ c (Proc.devRef .tc main_arg2) = m ((c : Thread nD τ).loc main_arg2) :=
  (W10_eq_W8 m ρ c main_arg2 (by decide) (by unwritten hostOps3)).trans (W8_arg2 m ρ c)
theorem W10_arg22 : W10 m ρ c (Proc.devRef .tc main_arg22) = m ((c : Thread nD τ).loc main_arg22) :=
  (W10_eq_W8 m ρ c main_arg22 (by decide) (by unwritten hostOps3)).trans (W8_arg22 m ρ c)
theorem W10_arg23 : W10 m ρ c (Proc.devRef .tc main_arg23) = m ((c : Thread nD τ).loc main_arg23) :=
  (W10_eq_W8 m ρ c main_arg23 (by decide) (by unwritten hostOps3)).trans (W8_arg23 m ρ c)
theorem W10_arg24 : W10 m ρ c (Proc.devRef .tc main_arg24) = m ((c : Thread nD τ).loc main_arg24) :=
  (W10_eq_W8 m ρ c main_arg24 (by decide) (by unwritten hostOps3)).trans (W8_arg24 m ρ c)
theorem W10_arg25 : W10 m ρ c (Proc.devRef .tc main_arg25) = m ((c : Thread nD τ).loc main_arg25) :=
  (W10_eq_W8 m ρ c main_arg25 (by decide) (by unwritten hostOps3)).trans (W8_arg25 m ρ c)
theorem W10_arg26 : W10 m ρ c (Proc.devRef .tc main_arg26) = m ((c : Thread nD τ).loc main_arg26) :=
  (W10_eq_W8 m ρ c main_arg26 (by decide) (by unwritten hostOps3)).trans (W8_arg26 m ρ c)

/-! ## The first region's entry: weights transposed, vectors as one-row arrays -/

theorem W3_v34 : W3 m ρ c (Proc.devRef .tc main_v34)
    = (transpose S168x512 [1, 0] (m ((c : Thread nD τ).loc main_arg3)) transposes_S512x168_S168x512_1_0 : (⟨S168x512, .f32⟩ : BufTy).Contents (Elt Ideal)) := by
  rw [← W2_arg3 m ρ c]
  show StableHlo.after hostOps0_2 (W2 m ρ c) (Proc.devRef .tc main_v34) = _
  read_stretch
theorem W3_v35 : W3 m ρ c (Proc.devRef .tc main_v35)
    = (transpose S512x64 [1, 0] (m ((c : Thread nD τ).loc main_arg9)) transposes_S64x512_S512x64_1_0 : (⟨S512x64, .f32⟩ : BufTy).Contents (Elt Ideal)) := by
  rw [← W2_arg9 m ρ c]
  show StableHlo.after hostOps0_2 (W2 m ρ c) (Proc.devRef .tc main_v35) = _
  read_stretch
theorem W3_v36 : W3 m ρ c (Proc.devRef .tc main_v36)
    = (shapeCast S1x512 (m ((c : Thread nD τ).loc main_arg4)) shapeCasts_S512_S1x512 : (⟨S1x512, .f32⟩ : BufTy).Contents (Elt Ideal)) := by
  rw [← W2_arg4 m ρ c]
  show StableHlo.after hostOps0_2 (W2 m ρ c) (Proc.devRef .tc main_v36) = _
  read_stretch
theorem W3_v37 : W3 m ρ c (Proc.devRef .tc main_v37)
    = (shapeCast S1x512 (m ((c : Thread nD τ).loc main_arg5)) shapeCasts_S512_S1x512 : (⟨S1x512, .f32⟩ : BufTy).Contents (Elt Ideal)) := by
  rw [← W2_arg5 m ρ c]
  show StableHlo.after hostOps0_2 (W2 m ρ c) (Proc.devRef .tc main_v37) = _
  read_stretch
theorem W3_v38 : W3 m ρ c (Proc.devRef .tc main_v38)
    = (shapeCast S1x512 (m ((c : Thread nD τ).loc main_arg6)) shapeCasts_S512_S1x512 : (⟨S1x512, .f32⟩ : BufTy).Contents (Elt Ideal)) := by
  rw [← W2_arg6 m ρ c]
  show StableHlo.after hostOps0_2 (W2 m ρ c) (Proc.devRef .tc main_v38) = _
  read_stretch
theorem W3_v39 : W3 m ρ c (Proc.devRef .tc main_v39)
    = (shapeCast S1x512 (m ((c : Thread nD τ).loc main_arg7)) shapeCasts_S512_S1x512 : (⟨S1x512, .f32⟩ : BufTy).Contents (Elt Ideal)) := by
  rw [← W2_arg7 m ρ c]
  show StableHlo.after hostOps0_2 (W2 m ρ c) (Proc.devRef .tc main_v39) = _
  read_stretch
theorem W3_v40 : W3 m ρ c (Proc.devRef .tc main_v40)
    = (shapeCast S1x512 (m ((c : Thread nD τ).loc main_arg8)) shapeCasts_S512_S1x512 : (⟨S1x512, .f32⟩ : BufTy).Contents (Elt Ideal)) := by
  rw [← W2_arg8 m ρ c]
  show StableHlo.after hostOps0_2 (W2 m ρ c) (Proc.devRef .tc main_v40) = _
  read_stretch
theorem W3_v41 : W3 m ρ c (Proc.devRef .tc main_v41)
    = (shapeCast S1x64 (m ((c : Thread nD τ).loc main_arg10)) shapeCasts_S64_S1x64 : (⟨S1x64, .f32⟩ : BufTy).Contents (Elt Ideal)) := by
  rw [← W2_arg10 m ρ c]
  show StableHlo.after hostOps0_2 (W2 m ρ c) (Proc.devRef .tc main_v41) = _
  read_stretch
theorem W3_v42 : W3 m ρ c (Proc.devRef .tc main_v42)
    = (shapeCast S1x64 (m ((c : Thread nD τ).loc main_arg11)) shapeCasts_S64_S1x64 : (⟨S1x64, .f32⟩ : BufTy).Contents (Elt Ideal)) := by
  rw [← W2_arg11 m ρ c]
  show StableHlo.after hostOps0_2 (W2 m ρ c) (Proc.devRef .tc main_v42) = _
  read_stretch
theorem W3_v43 : W3 m ρ c (Proc.devRef .tc main_v43)
    = (shapeCast S1x64 (m ((c : Thread nD τ).loc main_arg12)) shapeCasts_S64_S1x64 : (⟨S1x64, .f32⟩ : BufTy).Contents (Elt Ideal)) := by
  rw [← W2_arg12 m ρ c]
  show StableHlo.after hostOps0_2 (W2 m ρ c) (Proc.devRef .tc main_v43) = _
  read_stretch
theorem W3_v44 : W3 m ρ c (Proc.devRef .tc main_v44)
    = (shapeCast S1x64 (m ((c : Thread nD τ).loc main_arg13)) shapeCasts_S64_S1x64 : (⟨S1x64, .f32⟩ : BufTy).Contents (Elt Ideal)) := by
  rw [← W2_arg13 m ρ c]
  show StableHlo.after hostOps0_2 (W2 m ρ c) (Proc.devRef .tc main_v44) = _
  read_stretch
theorem W3_v45 : W3 m ρ c (Proc.devRef .tc main_v45)
    = (shapeCast S1x64 (m ((c : Thread nD τ).loc main_arg14)) shapeCasts_S64_S1x64 : (⟨S1x64, .f32⟩ : BufTy).Contents (Elt Ideal)) := by
  rw [← W2_arg14 m ρ c]
  show StableHlo.after hostOps0_2 (W2 m ρ c) (Proc.devRef .tc main_v45) = _
  read_stretch

/-! ## The second region's entry: the first region's output as left, the layer's weight transposed -/

theorem W5_v46 : W5 m ρ c (Proc.devRef .tc main_v46) = W4 m ρ c (Proc.devRef .tc main_v46) := by
  unwritten hostOps1
theorem W5_v47 : W5 m ρ c (Proc.devRef .tc main_v47)
    = (transpose S64x64 [1, 0] (m ((c : Thread nD τ).loc main_arg15)) transposes_S64x64_S64x64_1_0 : (⟨S64x64, .f32⟩ : BufTy).Contents (Elt Ideal)) := by
  rw [← W4_arg15 m ρ c]
  show StableHlo.after hostOps1 (W4 m ρ c) (Proc.devRef .tc main_v47) = _
  read_stretch_small

/-! ## The third region's entry: the normalisation's vectors as one-row arrays -/
theorem W7_v65 : W7 m ρ c (Proc.devRef .tc main_v65)
    = (shapeCast S1x64 (m ((c : Thread nD τ).loc main_arg17)) shapeCasts_S64_S1x64 : (⟨S1x64, .f32⟩ : BufTy).Contents (Elt Ideal)) := by
  rw [← W6_arg17 m ρ c]
  show StableHlo.after hostOps2 (W6 m ρ c) (Proc.devRef .tc main_v65) = _
  read_stretch
theorem W7_v66 : W7 m ρ c (Proc.devRef .tc main_v66)
    = (shapeCast S1x64 (m ((c : Thread nD τ).loc main_arg18)) shapeCasts_S64_S1x64 : (⟨S1x64, .f32⟩ : BufTy).Contents (Elt Ideal)) := by
  rw [← W6_arg18 m ρ c]
  show StableHlo.after hostOps2 (W6 m ρ c) (Proc.devRef .tc main_v66) = _
  read_stretch
theorem W7_v67 : W7 m ρ c (Proc.devRef .tc main_v67)
    = (shapeCast S1x64 (m ((c : Thread nD τ).loc main_arg19)) shapeCasts_S64_S1x64 : (⟨S1x64, .f32⟩ : BufTy).Contents (Elt Ideal)) := by
  rw [← W6_arg19 m ρ c]
  show StableHlo.after hostOps2 (W6 m ρ c) (Proc.devRef .tc main_v67) = _
  read_stretch
theorem W7_v68 : W7 m ρ c (Proc.devRef .tc main_v68)
    = (shapeCast S1x64 (m ((c : Thread nD τ).loc main_arg20)) shapeCasts_S64_S1x64 : (⟨S1x64, .f32⟩ : BufTy).Contents (Elt Ideal)) := by
  rw [← W6_arg20 m ρ c]
  show StableHlo.after hostOps2 (W6 m ρ c) (Proc.devRef .tc main_v68) = _
  read_stretch

/-! ## The fourth region's entry: the third region's output as left, the layer's weight transposed -/

theorem W9_v69 : W9 m ρ c (Proc.devRef .tc main_v69) = W8 m ρ c (Proc.devRef .tc main_v69) := by
  unwritten hostOps3
theorem W9_v70 : W9 m ρ c (Proc.devRef .tc main_v70)
    = (transpose S64x64 [1, 0] (m ((c : Thread nD τ).loc main_arg21)) transposes_S64x64_S64x64_1_0 : (⟨S64x64, .f32⟩ : BufTy).Contents (Elt Ideal)) := by
  rw [← W8_arg21 m ρ c]
  show StableHlo.after hostOps3 (W8 m ρ c) (Proc.devRef .tc main_v70) = _
  read_stretch_small

/-! ## The fifth region's entry: the normalisation's vectors as one-row arrays -/
theorem W11_v88 : W11 m ρ c (Proc.devRef .tc main_v88)
    = (shapeCast S1x64 (m ((c : Thread nD τ).loc main_arg23)) shapeCasts_S64_S1x64 : (⟨S1x64, .f32⟩ : BufTy).Contents (Elt Ideal)) := by
  rw [← W10_arg23 m ρ c]
  show StableHlo.after hostOps4 (W10 m ρ c) (Proc.devRef .tc main_v88) = _
  read_stretch
theorem W11_v89 : W11 m ρ c (Proc.devRef .tc main_v89)
    = (shapeCast S1x64 (m ((c : Thread nD τ).loc main_arg24)) shapeCasts_S64_S1x64 : (⟨S1x64, .f32⟩ : BufTy).Contents (Elt Ideal)) := by
  rw [← W10_arg24 m ρ c]
  show StableHlo.after hostOps4 (W10 m ρ c) (Proc.devRef .tc main_v89) = _
  read_stretch
theorem W11_v90 : W11 m ρ c (Proc.devRef .tc main_v90)
    = (shapeCast S1x64 (m ((c : Thread nD τ).loc main_arg25)) shapeCasts_S64_S1x64 : (⟨S1x64, .f32⟩ : BufTy).Contents (Elt Ideal)) := by
  rw [← W10_arg25 m ρ c]
  show StableHlo.after hostOps4 (W10 m ρ c) (Proc.devRef .tc main_v90) = _
  read_stretch
theorem W11_v91 : W11 m ρ c (Proc.devRef .tc main_v91)
    = (shapeCast S1x64 (m ((c : Thread nD τ).loc main_arg26)) shapeCasts_S64_S1x64 : (⟨S1x64, .f32⟩ : BufTy).Contents (Elt Ideal)) := by
  rw [← W10_arg26 m ρ c]
  show StableHlo.after hostOps4 (W10 m ρ c) (Proc.devRef .tc main_v91) = _
  read_stretch

/-! ## The edge data, computed once in the opening stretches

The concatenated source and target index lists, the edge weights extended by ones, and the normalised edge weights:
each is the value the reference computes for its first graph layer, and again (primed names) for its second. -/

/-! ### As the reference computes them for its first graph layer -/

theorem W1_v5 : W1 m ρ c (Proc.devRef .tc main_v5) = Cert.ReferenceIdeal.Read.val_main_v49 (F := Ideal) (m ((c : Thread nD τ).loc main_arg1)) := by
  show StableHlo.after hostOps0 (W0 m ρ c) (Proc.devRef .tc main_v5) = _
  read_stretch
theorem W1_v6 : W1 m ρ c (Proc.devRef .tc main_v6) = Cert.ReferenceIdeal.Read.val_main_v50 (F := Ideal) (m ((c : Thread nD τ).loc main_arg1)) := by
  show StableHlo.after hostOps0 (W0 m ρ c) (Proc.devRef .tc main_v6) = _
  read_stretch
theorem W1_v8 : W1 m ρ c (Proc.devRef .tc main_v8) = Cert.ReferenceIdeal.Read.val_main_v52 (F := Ideal) (m ((c : Thread nD τ).loc main_arg2)) := by
  show StableHlo.after hostOps0 (W0 m ρ c) (Proc.devRef .tc main_v8) = _
  read_stretch
theorem W1_v13 : W1 m ρ c (Proc.devRef .tc main_v13) = Cert.ReferenceIdeal.Read.val_main_v57 (F := Ideal) (m ((c : Thread nD τ).loc main_arg1)) (m ((c : Thread nD τ).loc main_arg2)) := by
  show StableHlo.after hostOps0 (W0 m ρ c) (Proc.devRef .tc main_v13) = _
  read_stretch
theorem W1_v16 : W1 m ρ c (Proc.devRef .tc main_v16) = Cert.ReferenceIdeal.Read.val_main_v60 (F := Ideal) (m ((c : Thread nD τ).loc main_arg1)) (m ((c : Thread nD τ).loc main_arg2)) := by
  show StableHlo.after hostOps0 (W0 m ρ c) (Proc.devRef .tc main_v16) = _
  read_stretch
theorem W1_cst_3 : W1 m ρ c (Proc.devRef .tc main_cst_3) = Cert.ReferenceIdeal.Read.val_main_cst_5 (F := Ideal) := by
  show StableHlo.after hostOps0 (W0 m ρ c) (Proc.devRef .tc main_cst_3) = _
  read_stretch

theorem W2_v5 : W2 m ρ c (Proc.devRef .tc main_v5) = Cert.ReferenceIdeal.Read.val_main_v49 (F := Ideal) (m ((c : Thread nD τ).loc main_arg1)) :=
  (show W2 m ρ c (Proc.devRef .tc main_v5) = W1 m ρ c (Proc.devRef .tc main_v5) by unwritten hostOps0_1).trans (W1_v5 m ρ c)
theorem W2_v6 : W2 m ρ c (Proc.devRef .tc main_v6) = Cert.ReferenceIdeal.Read.val_main_v50 (F := Ideal) (m ((c : Thread nD τ).loc main_arg1)) :=
  (show W2 m ρ c (Proc.devRef .tc main_v6) = W1 m ρ c (Proc.devRef .tc main_v6) by unwritten hostOps0_1).trans (W1_v6 m ρ c)
theorem W2_v8 : W2 m ρ c (Proc.devRef .tc main_v8) = Cert.ReferenceIdeal.Read.val_main_v52 (F := Ideal) (m ((c : Thread nD τ).loc main_arg2)) :=
  (show W2 m ρ c (Proc.devRef .tc main_v8) = W1 m ρ c (Proc.devRef .tc main_v8) by unwritten hostOps0_1).trans (W1_v8 m ρ c)
/-- The inverse square root of the weighted degree, zero where the degree is not positive. -/
theorem W2_v17 : W2 m ρ c (Proc.devRef .tc main_v17) = Cert.ReferenceIdeal.Read.val_main_v61 (F := Ideal) (m ((c : Thread nD τ).loc main_arg1)) (m ((c : Thread nD τ).loc main_arg2)) := by
  have h13 := W1_v13 m ρ c
  have h16 := W1_v16 m ρ c
  have hc := W1_cst_3 m ρ c
  show StableHlo.after hostOps0_1 (W1 m ρ c) (Proc.devRef .tc main_v17) = _
  generalize W1 m ρ c = V at h13 h16 hc ⊢
  after_results
  -- each operation of the outlined function moves its operands from, and its result to, the buffers' recorded types:
  -- at these literal buffers every such move is the identity
  have e13 : (StableHlo.TRef.of main_v13 : StableHlo.TRef sig ⟨S100000, .i1⟩).ofBuf (V (Proc.devRef .tc main_v13))
      = V (Proc.devRef .tc main_v13) := rfl
  have e16 : (StableHlo.TRef.of main_v16 : StableHlo.TRef sig ⟨S100000, .f32⟩).ofBuf (V (Proc.devRef .tc main_v16))
      = V (Proc.devRef .tc main_v16) := rfl
  have ec : (StableHlo.TRef.of main_cst_3 : StableHlo.TRef sig ⟨S_, .f32⟩).ofBuf (V (Proc.devRef .tc main_cst_3))
      = V (Proc.devRef .tc main_cst_3) := rfl
  have e17 : ∀ v : (⟨S100000, .f32⟩ : BufTy).Contents (Elt Ideal),
      (StableHlo.TRef.of main_v17 : StableHlo.TRef sig ⟨S100000, .f32⟩).toBuf v = v := fun _ => rfl
  rw [ofBuf_toBuf, ofBuf_toBuf, e13, e16, ec, e17, h13, h16, hc]
  rfl

theorem W3_v5 : W3 m ρ c (Proc.devRef .tc main_v5) = Cert.ReferenceIdeal.Read.val_main_v49 (F := Ideal) (m ((c : Thread nD τ).loc main_arg1)) :=
  (show W3 m ρ c (Proc.devRef .tc main_v5) = W2 m ρ c (Proc.devRef .tc main_v5) by unwritten hostOps0_2).trans (W2_v5 m ρ c)
theorem W3_v6 : W3 m ρ c (Proc.devRef .tc main_v6) = Cert.ReferenceIdeal.Read.val_main_v50 (F := Ideal) (m ((c : Thread nD τ).loc main_arg1)) :=
  (show W3 m ρ c (Proc.devRef .tc main_v6) = W2 m ρ c (Proc.devRef .tc main_v6) by unwritten hostOps0_2).trans (W2_v6 m ρ c)
/-- The normalised edge weights: the weight times the two end points' inverse square root degrees. -/
theorem W3_v33 : W3 m ρ c (Proc.devRef .tc main_v33) = Cert.ReferenceIdeal.Read.val_main_v77 (F := Ideal) (m ((c : Thread nD τ).loc main_arg1)) (m ((c : Thread nD τ).loc main_arg2)) := by
  have h5 := W2_v5 m ρ c
  have h6 := W2_v6 m ρ c
  have h8 := W2_v8 m ρ c
  have h17 := W2_v17 m ρ c
  show StableHlo.after hostOps0_2 (W2 m ρ c) (Proc.devRef .tc main_v33) = _
  generalize W2 m ρ c = V at h5 h6 h8 h17 ⊢
  after_results_simp
  rw [h5, h6, h8, h17]
  rfl

/-! ### As the reference computes them for its second graph layer -/

theorem W1_v5' : W1 m ρ c (Proc.devRef .tc main_v5) = Cert.ReferenceIdeal.Read.val_main_v113 (F := Ideal) (m ((c : Thread nD τ).loc main_arg1)) := by
  show StableHlo.after hostOps0 (W0 m ρ c) (Proc.devRef .tc main_v5) = _
  read_stretch
theorem W1_v6' : W1 m ρ c (Proc.devRef .tc main_v6) = Cert.ReferenceIdeal.Read.val_main_v114 (F := Ideal) (m ((c : Thread nD τ).loc main_arg1)) := by
  show StableHlo.after hostOps0 (W0 m ρ c) (Proc.devRef .tc main_v6) = _
  read_stretch
theorem W1_v8' : W1 m ρ c (Proc.devRef .tc main_v8) = Cert.ReferenceIdeal.Read.val_main_v116 (F := Ideal) (m ((c : Thread nD τ).loc main_arg2)) := by
  show StableHlo.after hostOps0 (W0 m ρ c) (Proc.devRef .tc main_v8) = _
  read_stretch
theorem W1_v13' : W1 m ρ c (Proc.devRef .tc main_v13) = Cert.ReferenceIdeal.Read.val_main_v121 (F := Ideal) (m ((c : Thread nD τ).loc main_arg1)) (m ((c : Thread nD τ).loc main_arg2)) := by
  show StableHlo.after hostOps0 (W0 m ρ c) (Proc.devRef .tc main_v13) = _
  read_stretch
theorem W1_v16' : W1 m ρ c (Proc.devRef .tc main_v16) = Cert.ReferenceIdeal.Read.val_main_v124 (F := Ideal) (m ((c : Thread nD τ).loc main_arg1)) (m ((c : Thread nD τ).loc main_arg2)) := by
  show StableHlo.after hostOps0 (W0 m ρ c) (Proc.devRef .tc main_v16) = _
  read_stretch
theorem W1_cst_3' : W1 m ρ c (Proc.devRef .tc main_cst_3) = Cert.ReferenceIdeal.Read.val_main_cst_17 (F := Ideal) := by
  show StableHlo.after hostOps0 (W0 m ρ c) (Proc.devRef .tc main_cst_3) = _
  read_stretch

theorem W2_v5' : W2 m ρ c (Proc.devRef .tc main_v5) = Cert.ReferenceIdeal.Read.val_main_v113 (F := Ideal) (m ((c : Thread nD τ).loc main_arg1)) :=
  (show W2 m ρ c (Proc.devRef .tc main_v5) = W1 m ρ c (Proc.devRef .tc main_v5) by unwritten hostOps0_1).trans (W1_v5' m ρ c)
theorem W2_v6' : W2 m ρ c (Proc.devRef .tc main_v6) = Cert.ReferenceIdeal.Read.val_main_v114 (F := Ideal) (m ((c : Thread nD τ).loc main_arg1)) :=
  (show W2 m ρ c (Proc.devRef .tc main_v6) = W1 m ρ c (Proc.devRef .tc main_v6) by unwritten hostOps0_1).trans (W1_v6' m ρ c)
theorem W2_v8' : W2 m ρ c (Proc.devRef .tc main_v8) = Cert.ReferenceIdeal.Read.val_main_v116 (F := Ideal) (m ((c : Thread nD τ).loc main_arg2)) :=
  (show W2 m ρ c (Proc.devRef .tc main_v8) = W1 m ρ c (Proc.devRef .tc main_v8) by unwritten hostOps0_1).trans (W1_v8' m ρ c)
/-- The inverse square root of the weighted degree, zero where the degree is not positive. -/
theorem W2_v17' : W2 m ρ c (Proc.devRef .tc main_v17) = Cert.ReferenceIdeal.Read.val_main_v125 (F := Ideal) (m ((c : Thread nD τ).loc main_arg1)) (m ((c : Thread nD τ).loc main_arg2)) := by
  have h13 := W1_v13' m ρ c
  have h16 := W1_v16' m ρ c
  have hc := W1_cst_3' m ρ c
  show StableHlo.after hostOps0_1 (W1 m ρ c) (Proc.devRef .tc main_v17) = _
  generalize W1 m ρ c = V at h13 h16 hc ⊢
  after_results
  -- each operation of the outlined function moves its operands from, and its result to, the buffers' recorded types:
  -- at these literal buffers every such move is the identity
  have e13 : (StableHlo.TRef.of main_v13 : StableHlo.TRef sig ⟨S100000, .i1⟩).ofBuf (V (Proc.devRef .tc main_v13))
      = V (Proc.devRef .tc main_v13) := rfl
  have e16 : (StableHlo.TRef.of main_v16 : StableHlo.TRef sig ⟨S100000, .f32⟩).ofBuf (V (Proc.devRef .tc main_v16))
      = V (Proc.devRef .tc main_v16) := rfl
  have ec : (StableHlo.TRef.of main_cst_3 : StableHlo.TRef sig ⟨S_, .f32⟩).ofBuf (V (Proc.devRef .tc main_cst_3))
      = V (Proc.devRef .tc main_cst_3) := rfl
  have e17 : ∀ v : (⟨S100000, .f32⟩ : BufTy).Contents (Elt Ideal),
      (StableHlo.TRef.of main_v17 : StableHlo.TRef sig ⟨S100000, .f32⟩).toBuf v = v := fun _ => rfl
  rw [ofBuf_toBuf, ofBuf_toBuf, e13, e16, ec, e17, h13, h16, hc]
  rfl

theorem W3_v5' : W3 m ρ c (Proc.devRef .tc main_v5) = Cert.ReferenceIdeal.Read.val_main_v113 (F := Ideal) (m ((c : Thread nD τ).loc main_arg1)) :=
  (show W3 m ρ c (Proc.devRef .tc main_v5) = W2 m ρ c (Proc.devRef .tc main_v5) by unwritten hostOps0_2).trans (W2_v5' m ρ c)
theorem W3_v6' : W3 m ρ c (Proc.devRef .tc main_v6) = Cert.ReferenceIdeal.Read.val_main_v114 (F := Ideal) (m ((c : Thread nD τ).loc main_arg1)) :=
  (show W3 m ρ c (Proc.devRef .tc main_v6) = W2 m ρ c (Proc.devRef .tc main_v6) by unwritten hostOps0_2).trans (W2_v6' m ρ c)
/-- The normalised edge weights: the weight times the two end points' inverse square root degrees. -/
theorem W3_v33' : W3 m ρ c (Proc.devRef .tc main_v33) = Cert.ReferenceIdeal.Read.val_main_v141 (F := Ideal) (m ((c : Thread nD τ).loc main_arg1)) (m ((c : Thread nD τ).loc main_arg2)) := by
  have h5 := W2_v5' m ρ c
  have h6 := W2_v6' m ρ c
  have h8 := W2_v8' m ρ c
  have h17 := W2_v17' m ρ c
  show StableHlo.after hostOps0_2 (W2 m ρ c) (Proc.devRef .tc main_v33) = _
  generalize W2 m ρ c = V at h5 h6 h8 h17 ⊢
  after_results_simp
  rw [h5, h6, h8, h17]
  rfl

/-! ## The edge data at the second and the fourth region's exit -/

theorem W6_v5 : W6 m ρ c (Proc.devRef .tc main_v5) = Cert.ReferenceIdeal.Read.val_main_v49 (F := Ideal) (m ((c : Thread nD τ).loc main_arg1)) :=
  (W6_eq_W3 m ρ c main_v5 (by decide) (by unwritten hostOps1) (by decide)).trans (W3_v5 m ρ c)
theorem W6_v6 : W6 m ρ c (Proc.devRef .tc main_v6) = Cert.ReferenceIdeal.Read.val_main_v50 (F := Ideal) (m ((c : Thread nD τ).loc main_arg1)) :=
  (W6_eq_W3 m ρ c main_v6 (by decide) (by unwritten hostOps1) (by decide)).trans (W3_v6 m ρ c)
theorem W6_v33 : W6 m ρ c (Proc.devRef .tc main_v33) = Cert.ReferenceIdeal.Read.val_main_v77 (F := Ideal) (m ((c : Thread nD τ).loc main_arg1)) (m ((c : Thread nD τ).loc main_arg2)) :=
  (W6_eq_W3 m ρ c main_v33 (by decide) (by unwritten hostOps1) (by decide)).trans (W3_v33 m ρ c)

/-- From the fourth region's exit back to the first region's entry. -/
theorem W10_eq_W3 (b : Ref sig .tc) (h3 : ∀ w, Pipeline.arrRef spec3 w ≠ b)
    (hs3 : StableHlo.after hostOps3 (W8 m ρ c) (Proc.devRef .tc b) = W8 m ρ c (Proc.devRef .tc b))
    (h2 : ∀ w, Pipeline.arrRef spec2 w ≠ b)
    (hs2 : StableHlo.after hostOps2 (W6 m ρ c) (Proc.devRef .tc b) = W6 m ρ c (Proc.devRef .tc b))
    (h1 : ∀ w, Pipeline.arrRef spec1 w ≠ b)
    (hs1 : StableHlo.after hostOps1 (W4 m ρ c) (Proc.devRef .tc b) = W4 m ρ c (Proc.devRef .tc b))
    (h0 : ∀ w, Pipeline.arrRef spec0 w ≠ b) :
    W10 m ρ c (Proc.devRef .tc b) = W3 m ρ c (Proc.devRef .tc b) :=
  (W10_eq_W8 m ρ c b h3 hs3).trans ((W8_eq_W6 m ρ c b h2 hs2).trans (W6_eq_W3 m ρ c b h1 hs1 h0))

theorem W10_v5 : W10 m ρ c (Proc.devRef .tc main_v5) = Cert.ReferenceIdeal.Read.val_main_v113 (F := Ideal) (m ((c : Thread nD τ).loc main_arg1)) :=
  (W10_eq_W3 m ρ c main_v5 (by decide) (by unwritten hostOps3) (by decide) (by unwritten hostOps2) (by decide) (by unwritten hostOps1)
    (by decide)).trans (W3_v5' m ρ c)
theorem W10_v6 : W10 m ρ c (Proc.devRef .tc main_v6) = Cert.ReferenceIdeal.Read.val_main_v114 (F := Ideal) (m ((c : Thread nD τ).loc main_arg1)) :=
  (W10_eq_W3 m ρ c main_v6 (by decide) (by unwritten hostOps3) (by decide) (by unwritten hostOps2) (by decide) (by unwritten hostOps1)
    (by decide)).trans (W3_v6' m ρ c)
theorem W10_v33 : W10 m ρ c (Proc.devRef .tc main_v33) = Cert.ReferenceIdeal.Read.val_main_v141 (F := Ideal) (m ((c : Thread nD τ).loc main_arg1)) (m ((c : Thread nD τ).loc main_arg2)) :=
  (W10_eq_W3 m ρ c main_v33 (by decide) (by unwritten hostOps3) (by decide) (by unwritten hostOps2) (by decide) (by unwritten hostOps1)
    (by decide)).trans (W3_v33' m ρ c)

/-! ## The third and the fifth region's entry: the graph aggregation of the previous region's output

Gathered at the wrapped source indices, scaled by the normalised edge weights, summed at the target indices from the
zero array, the bias row added: the stretch's operations over what it finds, which on the edge data are the
reference's stages. -/

theorem W7_v64 : W7 m ρ c (Proc.devRef .tc main_v64)
    = Cert.Net.agg1 (W6 m ρ c (Proc.devRef .tc main_v48)) (m ((c : Thread nD τ).loc main_arg1)) (m ((c : Thread nD τ).loc main_arg2)) (m ((c : Thread nD τ).loc main_arg16)) := by
  have h5 := W6_v5 m ρ c
  have h6 := W6_v6 m ρ c
  have h33 := W6_v33 m ρ c
  have h16 := W6_arg16 m ρ c
  show StableHlo.after hostOps2 (W6 m ρ c) (Proc.devRef .tc main_v64) = _
  generalize W6 m ρ c = V at h5 h6 h33 h16 ⊢
  after_results_simp
  rw [h5, h6, h33, h16]
  rfl

theorem W11_v87 : W11 m ρ c (Proc.devRef .tc main_v87)
    = Cert.Net.agg2 (W10 m ρ c (Proc.devRef .tc main_v71)) (m ((c : Thread nD τ).loc main_arg1)) (m ((c : Thread nD τ).loc main_arg2)) (m ((c : Thread nD τ).loc main_arg22)) := by
  have h5 := W10_v5 m ρ c
  have h6 := W10_v6 m ρ c
  have h33 := W10_v33 m ρ c
  have h22 := W10_arg22 m ρ c
  show StableHlo.after hostOps4 (W10 m ρ c) (Proc.devRef .tc main_v87) = _
  generalize W10 m ρ c = V at h5 h6 h33 h22 ⊢
  after_results_simp
  rw [h5, h6, h33, h22]
  rfl

end Cert.KernelIdeal.HandHost

end
-- ==== Proof.RefNet.lean ====
/-
  The reference program computes the network of Net.lean.

  The reference is a straight line of whole-array operations.  Its dense part repeats one block four times — a
  matrix product with a transposed weight, a bias row added, then the rectifier (maximum with a zero splat), the mean
  row subtracted, the product with the reciprocal square root of (variance + ε), with the scale row, and the shift
  row added, every row being a vector laid out as one row and repeated over the 100000 rows.  Read at an entry
  (p, q), a vector laid out as a row and repeated is the vector's entry q, a repeated scalar is the scalar, and the
  host's product is the sum over k of x(p, k) · w(k, q); so each block is, entry by entry, `linR` / `mmR` followed by
  `normedR` (three general lemmas over abstract sizes, then one equation per stage of the program).  The graph
  aggregation between the blocks is not read at all: it is, operation for operation, `agg1` / `agg2` of the block's
  output, with the index arrays and edge weights left as the names the program gives them.
-/
import proofs.«103397_j44178033607255_2_alg».proof.Proof.Net
import proofs.«103397_j44178033607255_2_alg».proof.Proof.LibMatmulIx
import Idealize.ShloMosaic.Lib.ValueLayout
import Idealize.ShloMosaic.Lib.Pipeline.Value
import Idealize.ShloMosaic.PureOps.Ideal.Laws

noncomputable section

namespace Cert.RefNet

open Idealize.ShloMosaic Idealize.ShloMosaic.ValueIdx Cert.Net Cert.ReferenceIdeal Cert.ReferenceIdeal.Gen
  Cert.ReferenceIdeal.Read

/-! ## Broadcasts read at an index given by coordinates -/

section Bcast

variable {α : Type}

/-- A vector of `b` entries laid out as a one-row array: the row's entry `q` is the vector's entry `q`. -/
theorem bcVec_ix2 {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A one-row array repeated over `a` rows: the entry `(p, q)` is the row's entry `q`. -/
theorem bcRow_ix2 {a b : ℕ} (r : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h r (ix2 p q) = r (ix2 (0 : Fin 1) q) := by
  refine broadcastInDim_apply _ h r (ix2 p q) (ix2 (0 : Fin 1) q) fun ax => ?_
  match ax with
  | ⟨0, _⟩ => rfl
  | ⟨1, _⟩ =>
    show q.val = if b = 1 then 0 else q.val
    split
    · have := q.isLt; omega
    · rfl

/-- A scalar repeated over any shape: every entry is the scalar. -/
theorem bcScalar_apply {t : Shape} (c : (⟨0, ![]⟩ : Shape).Idx → α)
    (h : (⟨0, ![]⟩ : Shape).BroadcastsInDim t ![]) (j : t.Idx) :
    broadcastInDim t ![] h c j = c ix0 :=
  broadcastInDim_apply _ h c j ix0 fun ax => ax.elim0

end Bcast

/-! ## The reference's layers are the specification's -/

section Layers

variable {a K b : ℕ}

/-- The reciprocal square root of an array, read at an index. -/
theorem hostRsqrt_apply {s : Shape} (x : FVec Ideal s .f32) (i : s.Idx) : Host.rsqrt x i = Ideal.rsqrt (x i) := rfl

/-- The reference's rectify-and-normalise block — maximum with the zero splat, minus the mean row, times the
    reciprocal square root of (variance + ε) row, times the scale row, plus the shift row, each row a vector laid
    out as one row and repeated over the rows — is `normedR` of the four one-row arrays. -/
theorem host_normed (Y : FVec Ideal ⟨2, ![a, b]⟩ .f32) (g β μ v : FVec Ideal ⟨1, ![b]⟩ .f32)
    (h0 : (⟨0, ![]⟩ : Shape).BroadcastsInDim ⟨2, ![a, b]⟩ ![])
    (h0v : (⟨0, ![]⟩ : Shape).BroadcastsInDim ⟨1, ![b]⟩ ![])
    (h1 : (⟨1, ![b]⟩ : Shape).BroadcastsInDim ⟨2, ![1, b]⟩ ![1])
    (h2 : (⟨2, ![1, b]⟩ : Shape).BroadcastsInDim ⟨2, ![a, b]⟩ ![0, 1]) :
    addf (mulf (mulf (subf
            (maximumf Y (broadcastInDim ⟨2, ![a, b]⟩ ![] h0 (constant (F := Ideal) ⟨0, ![]⟩ .f32 0x00000000#32)))
            (broadcastInDim ⟨2, ![a, b]⟩ ![0, 1] h2 (broadcastInDim ⟨2, ![1, b]⟩ ![1] h1 μ)))
          (broadcastInDim ⟨2, ![a, b]⟩ ![0, 1] h2 (broadcastInDim ⟨2, ![1, b]⟩ ![1] h1
            (Host.rsqrt
              (addf v (broadcastInDim ⟨1, ![b]⟩ ![] h0v (constant (F := Ideal) ⟨0, ![]⟩ .f32 0x3727C5AC#32)))))))
        (broadcastInDim ⟨2, ![a, b]⟩ ![0, 1] h2 (broadcastInDim ⟨2, ![1, b]⟩ ![1] h1 g)))
      (broadcastInDim ⟨2, ![a, b]⟩ ![0, 1] h2 (broadcastInDim ⟨2, ![1, b]⟩ ![1] h1 β))
    = normedR Y (broadcastInDim ⟨2, ![1, b]⟩ ![1] h1 g) (broadcastInDim ⟨2, ![1, b]⟩ ![1] h1 β)
        (broadcastInDim ⟨2, ![1, b]⟩ ![1] h1 μ) (broadcastInDim ⟨2, ![1, b]⟩ ![1] h1 v) := by
  funext i
  obtain ⟨p, q, rfl⟩ : ∃ p q, i = ix2 p q := ⟨i 0, i 1, eq_ix2 i⟩
  rw [normedR_ix2]
  simp only [addf_apply, mulf_apply, subf_apply, maximumf_apply]
  rw [bcRow_ix2, bcRow_ix2, bcRow_ix2, bcRow_ix2, bcVec_ix2, bcVec_ix2, bcVec_ix2, bcVec_ix2, bcVec_ix2, bcScalar_apply,
    hostRsqrt_apply, addf_apply, bcScalar_apply]
  rfl

/-- The host's matrix product, for dimension numbers that contract the left operand's columns with the right
    operand's rows, is `mmR`. -/
theorem host_mm (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (X : FVec Ideal ⟨2, ![a, K]⟩ .f32) (W : FVec Ideal ⟨2, ![K, b]⟩ .f32) :
    Host.dotGeneral D none X W = mmR X W := by
  funext i
  obtain ⟨p, q, rfl⟩ : ∃ p q, i = ix2 p q := ⟨i 0, i 1, eq_ix2 i⟩
  rw [mmR_ix2]
  exact MatmulIx.dotGeneral_ix2 D hr hs hl0 hl1 hr0 hr1 none X W p q

/-- The host's linear layer — the product plus the bias row repeated over the rows — is `linR`. -/
theorem host_lin (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (X : FVec Ideal ⟨2, ![a, K]⟩ .f32) (W : FVec Ideal ⟨2, ![K, b]⟩ .f32) (r : FVec Ideal ⟨2, ![1, b]⟩ .f32)
    (h2 : (⟨2, ![1, b]⟩ : Shape).BroadcastsInDim ⟨2, ![a, b]⟩ ![0, 1]) :
    addf (Host.dotGeneral D none X W) (broadcastInDim ⟨2, ![a, b]⟩ ![0, 1] h2 r) = linR X W r := by
  funext i
  obtain ⟨p, q, rfl⟩ : ∃ p q, i = ix2 p q := ⟨i 0, i 1, eq_ix2 i⟩
  rw [linR_ix2, addf_apply, bcRow_ix2]
  exact congrArg (· + r (ix2 (0 : Fin 1) q)) (MatmulIx.dotGeneral_ix2 D hr hs hl0 hl1 hr0 hr1 none X W p q)

end Layers

/-! ## The reference program, stage by stage -/

section Stages

variable (x0 : (⟨S100000x168, .f32⟩ : BufTy).Contents (Elt Ideal)) (x1 : (⟨S2x1600000, .i32⟩ : BufTy).Contents (Elt Ideal))
    (x2 : (⟨S1600000, .f32⟩ : BufTy).Contents (Elt Ideal)) (x3 : (⟨S512x168, .f32⟩ : BufTy).Contents (Elt Ideal))
    (x4 x5 x6 x7 x8 : (⟨S512, .f32⟩ : BufTy).Contents (Elt Ideal)) (x9 : (⟨S64x512, .f32⟩ : BufTy).Contents (Elt Ideal))
    (x10 x11 x12 x13 x14 : (⟨S64, .f32⟩ : BufTy).Contents (Elt Ideal)) (x15 : (⟨S64x64, .f32⟩ : BufTy).Contents (Elt Ideal))
    (x16 x17 x18 x19 x20 : (⟨S64, .f32⟩ : BufTy).Contents (Elt Ideal)) (x21 : (⟨S64x64, .f32⟩ : BufTy).Contents (Elt Ideal))
    (x22 x23 x24 x25 x26 : (⟨S64, .f32⟩ : BufTy).Contents (Elt Ideal))

/-- The first dense layer's product and bias. -/
theorem v8_eq :
    val_main_v8 (F := Ideal) x0 x3 x4
      = linR x0 (transpose S168x512 [1, 0] x3 transposes_S512x168_S168x512_1_0) (row512 x4) :=
  host_lin (a := 100000) (K := 168) (b := 512) dot_S100000x168_S168x512_S100000x512_1_0_0_1_n_n rfl rfl
    lhs_main_v5_0 lhs_main_v5_1 rhs_main_v5_0 rhs_main_v5_1
    x0 (transpose S168x512 [1, 0] x3 transposes_S512x168_S168x512_1_0) (row512 x4)
    bcast_S1x512_S100000x512_0_1

/-- The first dense layer's rectifier and normalisation. -/
theorem v24_eq :
    val_main_v24 (F := Ideal) x0 x3 x4 x5 x6 x7 x8
      = normedR (val_main_v8 (F := Ideal) x0 x3 x4) (row512 x5) (row512 x6) (row512 x7) (row512 x8) :=
  host_normed (a := 100000) (b := 512) (val_main_v8 (F := Ideal) x0 x3 x4) x5 x6 x7 x8
    bcast_S_S100000x512 bcast_S_S512 bcast_S512_S1x512_1 bcast_S1x512_S100000x512_0_1

/-- The second dense layer's product and bias. -/
theorem v29_eq :
    val_main_v29 (F := Ideal) x0 x3 x4 x5 x6 x7 x8 x9 x10
      = linR (val_main_v24 (F := Ideal) x0 x3 x4 x5 x6 x7 x8)
          (transpose S512x64 [1, 0] x9 transposes_S64x512_S512x64_1_0) (row64 x10) :=
  host_lin (a := 100000) (K := 512) (b := 64) dot_S100000x512_S512x64_S100000x64_1_0_0_1_n_n rfl rfl
    lhs_main_v26_0 lhs_main_v26_1 rhs_main_v26_0 rhs_main_v26_1
    (val_main_v24 (F := Ideal) x0 x3 x4 x5 x6 x7 x8)
    (transpose S512x64 [1, 0] x9 transposes_S64x512_S512x64_1_0) (row64 x10)
    bcast_S1x64_S100000x64_0_1

/-- The second dense layer's rectifier and normalisation. -/
theorem v45_eq :
    val_main_v45 (F := Ideal) x0 x3 x4 x5 x6 x7 x8 x9 x10 x11 x12 x13 x14
      = normedR (val_main_v29 (F := Ideal) x0 x3 x4 x5 x6 x7 x8 x9 x10)
          (row64 x11) (row64 x12) (row64 x13) (row64 x14) :=
  host_normed (a := 100000) (b := 64) (val_main_v29 (F := Ideal) x0 x3 x4 x5 x6 x7 x8 x9 x10)
    x11 x12 x13 x14 bcast_S_S100000x64 bcast_S_S64 bcast_S64_S1x64_1 bcast_S1x64_S100000x64_0_1

/-- The first graph layer's product with its weight. -/
theorem v47_eq :
    val_main_v47 (F := Ideal) x0 x3 x4 x5 x6 x7 x8 x9 x10 x11 x12 x13 x14 x15
      = mmR (val_main_v45 (F := Ideal) x0 x3 x4 x5 x6 x7 x8 x9 x10 x11 x12 x13 x14)
          (transpose S64x64 [1, 0] x15 transposes_S64x64_S64x64_1_0) :=
  host_mm (a := 100000) (K := 64) (b := 64) dot_S100000x64_S64x64_S100000x64_1_0_0_1_n_n rfl rfl
    lhs_main_v47_0 lhs_main_v47_1 rhs_main_v47_0 rhs_main_v47_1
    (val_main_v45 (F := Ideal) x0 x3 x4 x5 x6 x7 x8 x9 x10 x11 x12 x13 x14)
    (transpose S64x64 [1, 0] x15 transposes_S64x64_S64x64_1_0)

/-- The first graph layer's aggregation is `agg1` of the product: the same operations on the same index arrays and
    weights, which stay unopened. -/
theorem v93_eq :
    val_main_v93 (F := Ideal) x0 x1 x2 x3 x4 x5 x6 x7 x8 x9 x10 x11 x12 x13 x14 x15 x16
      = agg1 (val_main_v47 (F := Ideal) x0 x3 x4 x5 x6 x7 x8 x9 x10 x11 x12 x13 x14 x15) x1 x2 x16 := by
  unfold val_main_v93 val_main_v90 val_main_v87 val_main_v84 agg1
  rfl

/-- The first graph layer's rectifier and normalisation. -/
theorem v109_eq :
    val_main_v109 (F := Ideal) x0 x1 x2 x3 x4 x5 x6 x7 x8 x9 x10 x11 x12 x13 x14 x15 x16 x17 x18 x19 x20
      = normedR (val_main_v93 (F := Ideal) x0 x1 x2 x3 x4 x5 x6 x7 x8 x9 x10 x11 x12 x13 x14 x15 x16)
          (row64 x17) (row64 x18) (row64 x19) (row64 x20) :=
  host_normed (a := 100000) (b := 64)
    (val_main_v93 (F := Ideal) x0 x1 x2 x3 x4 x5 x6 x7 x8 x9 x10 x11 x12 x13 x14 x15 x16)
    x17 x18 x19 x20 bcast_S_S100000x64 bcast_S_S64 bcast_S64_S1x64_1 bcast_S1x64_S100000x64_0_1

/-- The second graph layer's product with its weight. -/
theorem v111_eq :
    val_main_v111 (F := Ideal) x0 x1 x2 x3 x4 x5 x6 x7 x8 x9 x10 x11 x12 x13 x14 x15 x16 x17 x18 x19 x20 x21
      = mmR (val_main_v109 (F := Ideal) x0 x1 x2 x3 x4 x5 x6 x7 x8 x9 x10 x11 x12 x13 x14 x15 x16 x17 x18 x19 x20)
          (transpose S64x64 [1, 0] x21 transposes_S64x64_S64x64_1_0) :=
  host_mm (a := 100000) (K := 64) (b := 64) dot_S100000x64_S64x64_S100000x64_1_0_0_1_n_n rfl rfl
    lhs_main_v111_0 lhs_main_v111_1 rhs_main_v111_0 rhs_main_v111_1
    (val_main_v109 (F := Ideal) x0 x1 x2 x3 x4 x5 x6 x7 x8 x9 x10 x11 x12 x13 x14 x15 x16 x17 x18 x19 x20)
    (transpose S64x64 [1, 0] x21 transposes_S64x64_S64x64_1_0)

/-- The second graph layer's aggregation is `agg2` of the product. -/
theorem v157_eq :
    val_main_v157 (F := Ideal) x0 x1 x2 x3 x4 x5 x6 x7 x8 x9 x10 x11 x12 x13 x14 x15 x16 x17 x18 x19 x20 x21 x22
      = agg2 (val_main_v111 (F := Ideal) x0 x1 x2 x3 x4 x5 x6 x7 x8 x9 x10 x11 x12 x13 x14 x15 x16 x17 x18 x19 x20 x21)
          x1 x2 x22 := by
  unfold val_main_v157 val_main_v154 val_main_v151 val_main_v148 agg2
  rfl

/-- The second graph layer's rectifier and normalisation: the program's result. -/
theorem v173_eq :
    val_main_v173 (F := Ideal) x0 x1 x2 x3 x4 x5 x6 x7 x8 x9 x10 x11 x12 x13 x14 x15 x16 x17 x18 x19 x20 x21 x22 x23 x24 x25 x26
      = normedR (val_main_v157 (F := Ideal) x0 x1 x2 x3 x4 x5 x6 x7 x8 x9 x10 x11 x12 x13 x14 x15 x16 x17 x18 x19 x20 x21 x22)
          (row64 x23) (row64 x24) (row64 x25) (row64 x26) :=
  host_normed (a := 100000) (b := 64)
    (val_main_v157 (F := Ideal) x0 x1 x2 x3 x4 x5 x6 x7 x8 x9 x10 x11 x12 x13 x14 x15 x16 x17 x18 x19 x20 x21 x22)
    x23 x24 x25 x26 bcast_S_S100000x64 bcast_S_S64 bcast_S64_S1x64_1 bcast_S1x64_S100000x64_0_1

end Stages

/-- THE REFERENCE COMPUTES THE NETWORK: the value its last operation writes, as a function of @main's arguments, is
    `net` of them — the stages above, chained from the result back to the arguments. -/
theorem ref_eq (x0 : (⟨S100000x168, .f32⟩ : BufTy).Contents (Elt Ideal)) (x1 : (⟨S2x1600000, .i32⟩ : BufTy).Contents (Elt Ideal))
    (x2 : (⟨S1600000, .f32⟩ : BufTy).Contents (Elt Ideal)) (x3 : (⟨S512x168, .f32⟩ : BufTy).Contents (Elt Ideal))
    (x4 x5 x6 x7 x8 : (⟨S512, .f32⟩ : BufTy).Contents (Elt Ideal)) (x9 : (⟨S64x512, .f32⟩ : BufTy).Contents (Elt Ideal))
    (x10 x11 x12 x13 x14 : (⟨S64, .f32⟩ : BufTy).Contents (Elt Ideal)) (x15 : (⟨S64x64, .f32⟩ : BufTy).Contents (Elt Ideal))
    (x16 x17 x18 x19 x20 : (⟨S64, .f32⟩ : BufTy).Contents (Elt Ideal)) (x21 : (⟨S64x64, .f32⟩ : BufTy).Contents (Elt Ideal))
    (x22 x23 x24 x25 x26 : (⟨S64, .f32⟩ : BufTy).Contents (Elt Ideal)) :
    Cert.ReferenceIdeal.Read.val_main_v173 (F := Ideal)
        x0 x1 x2 x3 x4 x5 x6 x7 x8 x9 x10 x11 x12 x13 x14 x15 x16 x17 x18 x19 x20 x21 x22 x23 x24 x25 x26
      = Cert.Net.net
        x0 x1 x2 x3 x4 x5 x6 x7 x8 x9 x10 x11 x12 x13 x14 x15 x16 x17 x18 x19 x20 x21 x22 x23 x24 x25 x26 := by
  unfold Cert.Net.net Cert.Net.mlpR
  rw [v173_eq, v157_eq, v111_eq, v109_eq, v93_eq, v47_eq, v45_eq, v29_eq, v24_eq, v8_eq]

end Cert.RefNet

end
-- ==== Proof.KNet.lean ====
/-
  The network of Net.lean with the per-column vectors given as the kernel program gives them.

  The kernel program hands its regions each per-column vector of b entries as the [1, b] array obtained by a
  reshape, where the specification `net` lays the vector out as one row by a broadcast along the new axis.  Both are
  the array whose entry (0, q) is the vector's entry q, so the two one-row arrays are equal; and the kernel program's
  transposed weights are the specification's, the two differing only in which proof of the shapes' side condition
  they carry.  Hence the network written with the kernel program's operands is `net`.
-/
import proofs.«103397_j44178033607255_2_alg».proof.Proof.RefNet
import proofs.«103397_j44178033607255_2_alg».proof.Proof.Gen.KernelIdeal

noncomputable section

namespace Cert.KNet

open Idealize.ShloMosaic Idealize.ShloMosaic.ValueIdx

/-- A vector of `b` entries reshaped to `[1, b]` is the vector laid out as one row by a broadcast: both read, at
    `(u, q)`, the vector's entry `q`. -/
theorem shapeCast_eq_bcVec {α : Type} {b : ℕ} (v : (⟨1, ![b]⟩ : Shape).Idx → α)
    (hs : (⟨1, ![b]⟩ : Shape).ShapeCasts ⟨2, ![1, b]⟩)
    (hb : (⟨1, ![b]⟩ : Shape).BroadcastsInDim ⟨2, ![1, b]⟩ ![1]) :
    shapeCast ⟨2, ![1, b]⟩ v hs = broadcastInDim ⟨2, ![1, b]⟩ ![1] hb v := by
  funext i
  obtain ⟨u, q, rfl⟩ : ∃ u q, i = ix2 u q := ⟨i 0, i 1, eq_ix2 i⟩
  exact (shapeCast_a_1a_apply v hs u q).trans (Cert.RefNet.bcVec_ix2 v hb u q).symm

/-- The kernel program's one-row array of a 512-entry vector is the specification's. -/
theorem row512_eq (v : (⟨Cert.ReferenceIdeal.S512, .f32⟩ : BufTy).Contents (Elt Ideal)) :
    shapeCast Cert.KernelIdeal.S1x512 v Cert.KernelIdeal.Gen.shapeCasts_S512_S1x512 = Cert.Net.row512 v :=
  shapeCast_eq_bcVec (b := 512) v Cert.KernelIdeal.Gen.shapeCasts_S512_S1x512 Cert.ReferenceIdeal.Gen.bcast_S512_S1x512_1

/-- The kernel program's one-row array of a 64-entry vector is the specification's. -/
theorem row64_eq (v : (⟨Cert.ReferenceIdeal.S64, .f32⟩ : BufTy).Contents (Elt Ideal)) :
    shapeCast Cert.KernelIdeal.S1x64 v Cert.KernelIdeal.Gen.shapeCasts_S64_S1x64 = Cert.Net.row64 v :=
  shapeCast_eq_bcVec (b := 64) v Cert.KernelIdeal.Gen.shapeCasts_S64_S1x64 Cert.ReferenceIdeal.Gen.bcast_S64_S1x64_1

/-- The kernel program's transposed weights are the specification's: the same array, the shapes' side condition
    proved twice. -/
theorem wt0_eq (w : (⟨Cert.ReferenceIdeal.S512x168, .f32⟩ : BufTy).Contents (Elt Ideal)) :
    transpose Cert.KernelIdeal.S168x512 [1, 0] w Cert.KernelIdeal.Gen.transposes_S512x168_S168x512_1_0
      = transpose Cert.ReferenceIdeal.S168x512 [1, 0] w Cert.ReferenceIdeal.Gen.transposes_S512x168_S168x512_1_0 := rfl
theorem wt1_eq (w : (⟨Cert.ReferenceIdeal.S64x512, .f32⟩ : BufTy).Contents (Elt Ideal)) :
    transpose Cert.KernelIdeal.S512x64 [1, 0] w Cert.KernelIdeal.Gen.transposes_S64x512_S512x64_1_0
      = transpose Cert.ReferenceIdeal.S512x64 [1, 0] w Cert.ReferenceIdeal.Gen.transposes_S64x512_S512x64_1_0 := rfl
theorem wt2_eq (w : (⟨Cert.ReferenceIdeal.S64x64, .f32⟩ : BufTy).Contents (Elt Ideal)) :
    transpose Cert.KernelIdeal.S64x64 [1, 0] w Cert.KernelIdeal.Gen.transposes_S64x64_S64x64_1_0
      = transpose Cert.ReferenceIdeal.S64x64 [1, 0] w Cert.ReferenceIdeal.Gen.transposes_S64x64_S64x64_1_0 := rfl

/-- THE NETWORK ON THE KERNEL PROGRAM'S OPERANDS IS `net`: the layers of `net`, in its nesting, applied to the reshaped
    vectors and to the kernel program's transposed weights. -/
theorem knet_eq (x0 : (⟨Cert.ReferenceIdeal.S100000x168, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S512x168, .f32⟩ : BufTy).Contents (Elt Ideal))
    (x4 x5 x6 x7 x8 : (⟨Cert.ReferenceIdeal.S512, .f32⟩ : BufTy).Contents (Elt Ideal))
    (x9 : (⟨Cert.ReferenceIdeal.S64x512, .f32⟩ : BufTy).Contents (Elt Ideal))
    (x10 x11 x12 x13 x14 : (⟨Cert.ReferenceIdeal.S64, .f32⟩ : BufTy).Contents (Elt Ideal))
    (x15 : (⟨Cert.ReferenceIdeal.S64x64, .f32⟩ : BufTy).Contents (Elt Ideal))
    (x16 x17 x18 x19 x20 : (⟨Cert.ReferenceIdeal.S64, .f32⟩ : BufTy).Contents (Elt Ideal))
    (x21 : (⟨Cert.ReferenceIdeal.S64x64, .f32⟩ : BufTy).Contents (Elt Ideal))
    (x22 x23 x24 x25 x26 : (⟨Cert.ReferenceIdeal.S64, .f32⟩ : BufTy).Contents (Elt Ideal)) :
    Cert.Net.normedR
      (Cert.Net.agg2
        (Cert.Net.mmR
          (Cert.Net.normedR
            (Cert.Net.agg1
              (Cert.Net.mmR
                (Cert.Net.mlpR x0 (transpose Cert.KernelIdeal.S168x512 [1, 0] x3 Cert.KernelIdeal.Gen.transposes_S512x168_S168x512_1_0)
                  (shapeCast Cert.KernelIdeal.S1x512 x4 Cert.KernelIdeal.Gen.shapeCasts_S512_S1x512)
                  (shapeCast Cert.KernelIdeal.S1x512 x5 Cert.KernelIdeal.Gen.shapeCasts_S512_S1x512)
                  (shapeCast Cert.KernelIdeal.S1x512 x6 Cert.KernelIdeal.Gen.shapeCasts_S512_S1x512)
                  (shapeCast Cert.KernelIdeal.S1x512 x7 Cert.KernelIdeal.Gen.shapeCasts_S512_S1x512)
                  (shapeCast Cert.KernelIdeal.S1x512 x8 Cert.KernelIdeal.Gen.shapeCasts_S512_S1x512)
                  (transpose Cert.KernelIdeal.S512x64 [1, 0] x9 Cert.KernelIdeal.Gen.transposes_S64x512_S512x64_1_0)
                  (shapeCast Cert.KernelIdeal.S1x64 x10 Cert.KernelIdeal.Gen.shapeCasts_S64_S1x64)
                  (shapeCast Cert.KernelIdeal.S1x64 x11 Cert.KernelIdeal.Gen.shapeCasts_S64_S1x64)
                  (shapeCast Cert.KernelIdeal.S1x64 x12 Cert.KernelIdeal.Gen.shapeCasts_S64_S1x64)
                  (shapeCast Cert.KernelIdeal.S1x64 x13 Cert.KernelIdeal.Gen.shapeCasts_S64_S1x64)
                  (shapeCast Cert.KernelIdeal.S1x64 x14 Cert.KernelIdeal.Gen.shapeCasts_S64_S1x64))
                (transpose Cert.KernelIdeal.S64x64 [1, 0] x15 Cert.KernelIdeal.Gen.transposes_S64x64_S64x64_1_0))
              x1 x2 x16)
            (shapeCast Cert.KernelIdeal.S1x64 x17 Cert.KernelIdeal.Gen.shapeCasts_S64_S1x64)
            (shapeCast Cert.KernelIdeal.S1x64 x18 Cert.KernelIdeal.Gen.shapeCasts_S64_S1x64)
            (shapeCast Cert.KernelIdeal.S1x64 x19 Cert.KernelIdeal.Gen.shapeCasts_S64_S1x64)
            (shapeCast Cert.KernelIdeal.S1x64 x20 Cert.KernelIdeal.Gen.shapeCasts_S64_S1x64))
          (transpose Cert.KernelIdeal.S64x64 [1, 0] x21 Cert.KernelIdeal.Gen.transposes_S64x64_S64x64_1_0))
        x1 x2 x22)
      (shapeCast Cert.KernelIdeal.S1x64 x23 Cert.KernelIdeal.Gen.shapeCasts_S64_S1x64)
      (shapeCast Cert.KernelIdeal.S1x64 x24 Cert.KernelIdeal.Gen.shapeCasts_S64_S1x64)
      (shapeCast Cert.KernelIdeal.S1x64 x25 Cert.KernelIdeal.Gen.shapeCasts_S64_S1x64)
      (shapeCast Cert.KernelIdeal.S1x64 x26 Cert.KernelIdeal.Gen.shapeCasts_S64_S1x64)
    = Cert.Net.net
        x0 x1 x2 x3 x4 x5 x6 x7 x8 x9 x10 x11 x12 x13 x14 x15 x16 x17 x18 x19 x20 x21 x22 x23 x24 x25 x26 := by
  unfold Cert.Net.net
  rw [row512_eq x4, row512_eq x5, row512_eq x6, row512_eq x7, row512_eq x8,
    row64_eq x10, row64_eq x11, row64_eq x12, row64_eq x13, row64_eq x14, row64_eq x17, row64_eq x18,
    row64_eq x19, row64_eq x20, row64_eq x23, row64_eq x24, row64_eq x25, row64_eq x26,
    wt0_eq x3, wt1_eq x9, wt2_eq x15, wt2_eq x21]

end Cert.KNet

end
-- ==== Proof.KValue.lean ====
/-
  The idealized kernel program's result array as the network of its argument arrays.

  The result buffer's contents at the last boundary are read back one segment at a time: a region's output array is
  its layer applied to the arrays it is entered with (Regions), and those are either the previous region's output
  carried through a stretch of host operations that does not write it, or what a stretch writes — the weights
  transposed, the per-column vectors re-cast as one-row arrays, the graph aggregation of the previous output (KHost).
  Five regions in: the two dense layers of the input; its product with the first graph weight; the aggregation,
  rectified and normalised; the product with the second graph weight; the second aggregation, rectified and
  normalised.  With the one-row arrays read as the network's rows this is the network itself.
-/
import proofs.«103397_j44178033607255_2_alg».proof.Proof.Regions
import proofs.«103397_j44178033607255_2_alg».proof.Proof.KHost
import proofs.«103397_j44178033607255_2_alg».proof.Proof.KNet

set_option maxRecDepth 16384

noncomputable section

namespace Cert.KernelIdeal.HandValue

open Cert.KernelIdeal Cert.KernelIdeal.Gen Cert.Net Cert.KernelIdeal.HandHost
open Idealize.ShloMosaic Idealize.ShloMosaic.TcCoe

variable (m : (ℓ : Loc nD τ sig) → Buf (Elt Ideal) ℓ) (ρ : Dev nD → PrngReg) (c : Dev nD)

/-- Region 0 leaves the two dense layers of the input rows. -/
theorem dense : W4 m ρ c (Proc.devRef .tc main_v46)
    = mlpR (m ((c : Thread nD τ).loc main_arg0)) (transpose S168x512 [1, 0] (m ((c : Thread nD τ).loc main_arg3)) transposes_S512x168_S168x512_1_0 : (⟨S168x512, .f32⟩ : BufTy).Contents (Elt Ideal))
      (shapeCast S1x512 (m ((c : Thread nD τ).loc main_arg4)) shapeCasts_S512_S1x512 : (⟨S1x512, .f32⟩ : BufTy).Contents (Elt Ideal)) (shapeCast S1x512 (m ((c : Thread nD τ).loc main_arg5)) shapeCasts_S512_S1x512 : (⟨S1x512, .f32⟩ : BufTy).Contents (Elt Ideal)) (shapeCast S1x512 (m ((c : Thread nD τ).loc main_arg6)) shapeCasts_S512_S1x512 : (⟨S1x512, .f32⟩ : BufTy).Contents (Elt Ideal)) (shapeCast S1x512 (m ((c : Thread nD τ).loc main_arg7)) shapeCasts_S512_S1x512 : (⟨S1x512, .f32⟩ : BufTy).Contents (Elt Ideal)) (shapeCast S1x512 (m ((c : Thread nD τ).loc main_arg8)) shapeCasts_S512_S1x512 : (⟨S1x512, .f32⟩ : BufTy).Contents (Elt Ideal))
      (transpose S512x64 [1, 0] (m ((c : Thread nD τ).loc main_arg9)) transposes_S64x512_S512x64_1_0 : (⟨S512x64, .f32⟩ : BufTy).Contents (Elt Ideal))
      (shapeCast S1x64 (m ((c : Thread nD τ).loc main_arg10)) shapeCasts_S64_S1x64 : (⟨S1x64, .f32⟩ : BufTy).Contents (Elt Ideal)) (shapeCast S1x64 (m ((c : Thread nD τ).loc main_arg11)) shapeCasts_S64_S1x64 : (⟨S1x64, .f32⟩ : BufTy).Contents (Elt Ideal)) (shapeCast S1x64 (m ((c : Thread nD τ).loc main_arg12)) shapeCasts_S64_S1x64 : (⟨S1x64, .f32⟩ : BufTy).Contents (Elt Ideal)) (shapeCast S1x64 (m ((c : Thread nD τ).loc main_arg13)) shapeCasts_S64_S1x64 : (⟨S1x64, .f32⟩ : BufTy).Contents (Elt Ideal)) (shapeCast S1x64 (m ((c : Thread nD τ).loc main_arg14)) shapeCasts_S64_S1x64 : (⟨S1x64, .f32⟩ : BufTy).Contents (Elt Ideal)) := by
  refine ((W4_arr m ρ c 13).trans (Regions.value0 (V3 m ρ) c)).trans ?_
  show mlpR (W3 m ρ c (Proc.devRef .tc main_arg0)) (W3 m ρ c (Proc.devRef .tc main_v34)) (W3 m ρ c (Proc.devRef .tc main_v36)) (W3 m ρ c (Proc.devRef .tc main_v37)) (W3 m ρ c (Proc.devRef .tc main_v38)) (W3 m ρ c (Proc.devRef .tc main_v39)) (W3 m ρ c (Proc.devRef .tc main_v40)) (W3 m ρ c (Proc.devRef .tc main_v35)) (W3 m ρ c (Proc.devRef .tc main_v41)) (W3 m ρ c (Proc.devRef .tc main_v42)) (W3 m ρ c (Proc.devRef .tc main_v43)) (W3 m ρ c (Proc.devRef .tc main_v44)) (W3 m ρ c (Proc.devRef .tc main_v45)) = _
  rw [W3_arg0, W3_v34, W3_v36, W3_v37, W3_v38, W3_v39, W3_v40, W3_v35, W3_v41, W3_v42, W3_v43, W3_v44, W3_v45]

/-- Region 1 leaves their product with the first graph weight. -/
theorem prod1 : W6 m ρ c (Proc.devRef .tc main_v48) = mmR (W4 m ρ c (Proc.devRef .tc main_v46)) (transpose S64x64 [1, 0] (m ((c : Thread nD τ).loc main_arg15)) transposes_S64x64_S64x64_1_0 : (⟨S64x64, .f32⟩ : BufTy).Contents (Elt Ideal)) := by
  refine ((W6_arr m ρ c 2).trans (Regions.value1 (V5 m ρ) c)).trans ?_
  show mmR (W5 m ρ c (Proc.devRef .tc main_v46)) (W5 m ρ c (Proc.devRef .tc main_v47)) = _
  rw [W5_v46, W5_v47]

/-- Region 2 leaves the first aggregation, rectified and normalised. -/
theorem layer1 : W8 m ρ c (Proc.devRef .tc main_v69)
    = normedR (agg1 (W6 m ρ c (Proc.devRef .tc main_v48)) (m ((c : Thread nD τ).loc main_arg1)) (m ((c : Thread nD τ).loc main_arg2)) (m ((c : Thread nD τ).loc main_arg16))) (shapeCast S1x64 (m ((c : Thread nD τ).loc main_arg17)) shapeCasts_S64_S1x64 : (⟨S1x64, .f32⟩ : BufTy).Contents (Elt Ideal)) (shapeCast S1x64 (m ((c : Thread nD τ).loc main_arg18)) shapeCasts_S64_S1x64 : (⟨S1x64, .f32⟩ : BufTy).Contents (Elt Ideal)) (shapeCast S1x64 (m ((c : Thread nD τ).loc main_arg19)) shapeCasts_S64_S1x64 : (⟨S1x64, .f32⟩ : BufTy).Contents (Elt Ideal)) (shapeCast S1x64 (m ((c : Thread nD τ).loc main_arg20)) shapeCasts_S64_S1x64 : (⟨S1x64, .f32⟩ : BufTy).Contents (Elt Ideal)) := by
  refine ((W8_arr m ρ c 5).trans (Regions.value2 (V7 m ρ) c)).trans ?_
  show normedR (W7 m ρ c (Proc.devRef .tc main_v64)) (W7 m ρ c (Proc.devRef .tc main_v65)) (W7 m ρ c (Proc.devRef .tc main_v66)) (W7 m ρ c (Proc.devRef .tc main_v67)) (W7 m ρ c (Proc.devRef .tc main_v68)) = _
  rw [W7_v64, W7_v65, W7_v66, W7_v67, W7_v68]

/-- Region 3 leaves its product with the second graph weight. -/
theorem prod2 : W10 m ρ c (Proc.devRef .tc main_v71) = mmR (W8 m ρ c (Proc.devRef .tc main_v69)) (transpose S64x64 [1, 0] (m ((c : Thread nD τ).loc main_arg21)) transposes_S64x64_S64x64_1_0 : (⟨S64x64, .f32⟩ : BufTy).Contents (Elt Ideal)) := by
  refine ((W10_arr m ρ c 2).trans (Regions.value3 (V9 m ρ) c)).trans ?_
  show mmR (W9 m ρ c (Proc.devRef .tc main_v69)) (W9 m ρ c (Proc.devRef .tc main_v70)) = _
  rw [W9_v69, W9_v70]

/-- Region 4 leaves the second aggregation, rectified and normalised: the result. -/
theorem layer2 : W12 m ρ c (Proc.devRef .tc main_v92)
    = normedR (agg2 (W10 m ρ c (Proc.devRef .tc main_v71)) (m ((c : Thread nD τ).loc main_arg1)) (m ((c : Thread nD τ).loc main_arg2)) (m ((c : Thread nD τ).loc main_arg22))) (shapeCast S1x64 (m ((c : Thread nD τ).loc main_arg23)) shapeCasts_S64_S1x64 : (⟨S1x64, .f32⟩ : BufTy).Contents (Elt Ideal)) (shapeCast S1x64 (m ((c : Thread nD τ).loc main_arg24)) shapeCasts_S64_S1x64 : (⟨S1x64, .f32⟩ : BufTy).Contents (Elt Ideal)) (shapeCast S1x64 (m ((c : Thread nD τ).loc main_arg25)) shapeCasts_S64_S1x64 : (⟨S1x64, .f32⟩ : BufTy).Contents (Elt Ideal)) (shapeCast S1x64 (m ((c : Thread nD τ).loc main_arg26)) shapeCasts_S64_S1x64 : (⟨S1x64, .f32⟩ : BufTy).Contents (Elt Ideal)) := by
  refine ((W12_arr m ρ c 5).trans (Regions.value4 (V11 m ρ) c)).trans ?_
  show normedR (W11 m ρ c (Proc.devRef .tc main_v87)) (W11 m ρ c (Proc.devRef .tc main_v88)) (W11 m ρ c (Proc.devRef .tc main_v89)) (W11 m ρ c (Proc.devRef .tc main_v90)) (W11 m ρ c (Proc.devRef .tc main_v91)) = _
  rw [W11_v87, W11_v88, W11_v89, W11_v90, W11_v91]

/-- THE KERNEL PROGRAM'S RESULT is the network of the argument arrays. -/
theorem result_net : W12 m ρ c (Proc.devRef .tc main_v92)
    = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  rw [layer2, prod2, layer1, prod1, dense]
  exact Cert.KNet.knet_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))

end Cert.KernelIdeal.HandValue

end
-- ==== Proof.lean ====
/-
  The certificate: the tiled graph network and its whole-array reference compute one function at the ideal values.

  The network is two dense layers (linear, rectify, normalise with running statistics), then twice a graph layer:
  the product with the layer's weight, the aggregation over the edges (gather the source rows, scale by the
  normalised edge weight, sum at the target rows, add the bias), rectify and normalise.  The kernel program runs the
  dense parts in five regions tiled over fifty blocks of two thousand rows and the aggregation as host operations
  between them; the reference runs everything over the whole arrays.  At the ideal values a change of float format
  is the identity, a product accumulated from zero is the plain sum of products, and every dense layer reads, at a
  row, that row of its operand only — so each region's output array is its layer of the whole array it is entered
  with.  The aggregation is the same sequence of array operations on both sides and is never opened.  No law beyond
  that is used, so the precondition is not: the equality holds at the infinities too.

  Regions (a region's value), KHost (what the host stretches hold at each region's entry), KValue (the kernel's
  result as the network), RefNet (the reference's result as the network), Net / NetSpec (the network).
  The three frames are the generated ones; the ideal pass rewrote nothing, so the preservation claim is trivial.
-/
import proofs.«103397_j44178033607255_2_alg».proof.Defs
import proofs.«103397_j44178033607255_2_alg».proof.Proof.Gen.Kernel
import proofs.«103397_j44178033607255_2_alg».proof.Proof.Gen.Kernel.Skeleton
import proofs.«103397_j44178033607255_2_alg».proof.Proof.Gen.Kernel.Launch
import proofs.«103397_j44178033607255_2_alg».proof.Proof.Gen.Kernel.Points
import proofs.«103397_j44178033607255_2_alg».proof.Proof.Gen.Kernel.Frame
import proofs.«103397_j44178033607255_2_alg».proof.Proof.Gen.KernelIdeal
import proofs.«103397_j44178033607255_2_alg».proof.Proof.Gen.KernelIdeal.Skeleton
import proofs.«103397_j44178033607255_2_alg».proof.Proof.Gen.KernelIdeal.Launch
import proofs.«103397_j44178033607255_2_alg».proof.Proof.Gen.KernelIdeal.Points
import proofs.«103397_j44178033607255_2_alg».proof.Proof.Gen.KernelIdeal.Frame
import proofs.«103397_j44178033607255_2_alg».proof.Proof.Gen.ReferenceIdeal
import proofs.«103397_j44178033607255_2_alg».proof.Proof.Gen.ReferenceIdeal.Run
import proofs.«103397_j44178033607255_2_alg».proof.Proof.Gen.ReferenceIdeal.Read
import proofs.«103397_j44178033607255_2_alg».proof.Proof.Gen.Pre_finite_inputs
import proofs.«103397_j44178033607255_2_alg».proof.Proof.KRun
import proofs.«103397_j44178033607255_2_alg».proof.Proof.KValue
import proofs.«103397_j44178033607255_2_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass's ledger is empty: nothing to preserve. -/
theorem preserves : Cert.preserves_Kernel_KernelIdeal := trivial

/-- Run from memories agreeing on the arguments, both programs end with the network of the arguments in their
    result arrays: the kernel program by its run read back through the five regions, the reference by its run read
    one operation at a time. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)), ?_, ?_⟩
  · refine (θ_run Cert.KernelIdeal.defs _ _).mono (fun r h c => ?_) (Cert.KernelIdeal.HandRun.run_contents (F := Ideal) m ρ)
    exact ⟨(h c _ (Cert.KernelIdeal.Gen.mem_uc Cert.KernelIdeal.main_v92 (by decide))).trans (Cert.KernelIdeal.HandValue.result_net m ρ c),
      (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c),
      (h c _ (Cert.KernelIdeal.Gen.mem_uc Cert.KernelIdeal.main_arg6 (by decide))).trans (Cert.KernelIdeal.Gen.W12_main_arg6 m ρ c),
      (h c _ (Cert.KernelIdeal.Gen.mem_uc Cert.KernelIdeal.main_arg7 (by decide))).trans (Cert.KernelIdeal.Gen.W12_main_arg7 m ρ c),
      (h c _ (Cert.KernelIdeal.Gen.mem_uc Cert.KernelIdeal.main_arg8 (by decide))).trans (Cert.KernelIdeal.Gen.W12_main_arg8 m ρ c),
      (h c _ (Cert.KernelIdeal.Gen.mem_uc Cert.KernelIdeal.main_arg9 (by decide))).trans (Cert.KernelIdeal.Gen.W12_main_arg9 m ρ c),
      (h c _ (Cert.KernelIdeal.Gen.mem_uc Cert.KernelIdeal.main_arg10 (by decide))).trans (Cert.KernelIdeal.Gen.W12_main_arg10 m ρ c),
      (h c _ (Cert.KernelIdeal.Gen.mem_uc Cert.KernelIdeal.main_arg11 (by decide))).trans (Cert.KernelIdeal.Gen.W12_main_arg11 m ρ c),
      (h c _ (Cert.KernelIdeal.Gen.mem_uc Cert.KernelIdeal.main_arg12 (by decide))).trans (Cert.KernelIdeal.Gen.W12_main_arg12 m ρ c),
      (h c _ (Cert.KernelIdeal.Gen.mem_uc Cert.KernelIdeal.main_arg13 (by decide))).trans (Cert.KernelIdeal.Gen.W12_main_arg13 m ρ c),
      (h c _ (Cert.KernelIdeal.Gen.mem_uc Cert.KernelIdeal.main_arg14 (by decide))).trans (Cert.KernelIdeal.Gen.W12_main_arg14 m ρ c),
      (h c _ (Cert.KernelIdeal.Gen.mem_uc Cert.KernelIdeal.main_arg15 (by decide))).trans (Cert.KernelIdeal.Gen.W12_main_arg15 m ρ c),
      (h c _ (Cert.KernelIdeal.Gen.mem_uc Cert.KernelIdeal.main_arg16 (by decide))).trans (Cert.KernelIdeal.Gen.W12_main_arg16 m ρ c),
      (h c _ (Cert.KernelIdeal.Gen.mem_uc Cert.KernelIdeal.main_arg17 (by decide))).trans (Cert.KernelIdeal.Gen.W12_main_arg17 m ρ c),
      (h c _ (Cert.KernelIdeal.Gen.mem_uc Cert.KernelIdeal.main_arg18 (by decide))).trans (Cert.KernelIdeal.Gen.W12_main_arg18 m ρ c),
      (h c _ (Cert.KernelIdeal.Gen.mem_uc Cert.KernelIdeal.main_arg19 (by decide))).trans (Cert.KernelIdeal.Gen.W12_main_arg19 m ρ c),
      (h c _ (Cert.KernelIdeal.Gen.mem_uc Cert.KernelIdeal.main_arg20 (by decide))).trans (Cert.KernelIdeal.Gen.W12_main_arg20 m ρ c),
      (h c _ (Cert.KernelIdeal.Gen.mem_uc Cert.KernelIdeal.main_arg21 (by decide))).trans (Cert.KernelIdeal.Gen.W12_main_arg21 m ρ c),
      (h c _ (Cert.KernelIdeal.Gen.mem_uc Cert.KernelIdeal.main_arg22 (by decide))).trans (Cert.KernelIdeal.Gen.W12_main_arg22 m ρ c),
      (h c _ (Cert.KernelIdeal.Gen.mem_uc Cert.KernelIdeal.main_arg23 (by decide))).trans (Cert.KernelIdeal.Gen.W12_main_arg23 m ρ c),
      (h c _ (Cert.KernelIdeal.Gen.mem_uc Cert.KernelIdeal.main_arg24 (by decide))).trans (Cert.KernelIdeal.Gen.W12_main_arg24 m ρ c),
      (h c _ (Cert.KernelIdeal.Gen.mem_uc Cert.KernelIdeal.main_arg25 (by decide))).trans (Cert.KernelIdeal.Gen.W12_main_arg25 m ρ c),
      (h c _ (Cert.KernelIdeal.Gen.mem_uc Cert.KernelIdeal.main_arg26 (by decide))).trans (Cert.KernelIdeal.Gen.W12_main_arg26 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v173_eq, Cert.RefNet.ref_eq]
    obtain ⟨e0, e1, e2, e3, e4, e5, e6, e7, e8, e9, e10, e11, e12, e13, e14, e15, e16, e17, e18, e19, e20, e21, e22, e23, e24, e25, e26⟩ := hagree c
    rw [e0, e1, e2, e3, e4, e5, e6, e7, e8, e9, e10, e11, e12, e13, e14, e15, e16, e17, e18, e19, e20, e21, e22, e23, e24, e25, e26]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
